-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x8 : Shape := ⟨2, ![64, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_
  bcast_S_S64 : S_.BroadcastsInDim S64 (![] : Fin 0 → Fin S64.rank)
  reducesTo_S64_S_d0 : S64.ReducesTo [0] S_
  bcast_S_S64x8 : S_.BroadcastsInDim S64x8 (![] : Fin 0 → Fin S64x8.rank)
  reducesTo_S64x8_S_d0_1 : S64x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S8 .f32) (main_arg6 : FVec F S8x1 .f32) (main_arg7 : FVec F S1 .f32) (main_v13 : IVec S_ 1) (main_v16 : IVec S64x8 1) : IVec S_ 1 :=
  let main_c_5 : IVec S_ 1 := constantI S_ 1 1#1
  let main_v17 : IVec S_ 1 := (fun x v => Host.reduce IntOp.andi x v reducesTo_S64x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg6
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x1 .f32) (main_arg1 : IVec S2x3200000 32) (main_arg2 : FVec F S1x64 .f32) (main_arg3 : FVec F S64 .f32) (main_arg4 : FVec F S64x8 .f32) (main_arg5 : FVec F S8 .f32) (main_arg6 : FVec F S8x1 .f32) (main_arg7 : FVec F S1 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x64 .f32 := Host.absf main_arg2
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x8 .f32 := Host.absf main_arg4
  let main_cst_4 : FVec F S_ .f32 := constant S_ .f32 0x7F800000#32
  let main_v15 : FVec F S64x8 .f32 := broadcastInDim S64x8 ![] bcast_S_S64x8 main_cst_4
  let main_v16 : IVec S64x8 1 := cmpf .olt main_v14 main_v15
  fn_part1 (F := F) main_arg5 main_arg6 main_arg7 main_v13 main_v16
-- ==== Kernel.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x8 : Shape := ⟨2, ![64, 8]⟩
abbrev S8 : Shape := ⟨1, ![8]⟩
abbrev S8x1 : Shape := ⟨2, ![8, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S5000x1 : Shape := ⟨2, ![5000, 1]⟩
abbrev S5000x64 : Shape := ⟨2, ![5000, 64]⟩
abbrev S3200000x64 : Shape := ⟨2, ![3200000, 64]⟩
abbrev S100000x8 : Shape := ⟨2, ![100000, 8]⟩
abbrev S5000x8 : Shape := ⟨2, ![5000, 8]⟩
abbrev S3200000x8 : Shape := ⟨2, ![3200000, 8]⟩
abbrev S1x8 : Shape := ⟨2, ![1, 8]⟩
abbrev S1x1 : Shape := ⟨2, ![1, 1]⟩

abbrev nBuf : Space → Nat
  | .hbm => 139
  | .vmem => 42
  | .smem => 0
  | _ => 0

abbrev hbmTy0_0 (i : Nat) : BufTy := match i % 128 with
  | 0 => ⟨S100000x1, .f32⟩
  | 1 => ⟨S2x3200000, .i32⟩
  | 2 => ⟨S1x64, .f32⟩
  | 3 => ⟨S64, .f32⟩
  | 4 => ⟨S64x8, .f32⟩
  | 5 => ⟨S8, .f32⟩
  | 6 => ⟨S8x1, .f32⟩
  | 7 => ⟨S1, .f32⟩
  | 8 => ⟨S1x3200000, .i32⟩
  | 9 => ⟨S3200000, .i32⟩
  | 10 => ⟨S1x3200000, .i32⟩
  | 11 => ⟨S3200000, .i32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000, .f32⟩
  | 23 => ⟨S100000x64, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S3200000, .f32⟩
  | 43 => ⟨S_, .i32⟩
  | 44 => ⟨S3200000, .i32⟩
  | 45 => ⟨S3200000, .i1⟩
  | 46 => ⟨S_, .i32⟩
  | 47 => ⟨S3200000, .i32⟩
  | 48 => ⟨S3200000, .i32⟩
  | 49 => ⟨S3200000, .i32⟩
  | 50 => ⟨S3200000x1, .i32⟩
  | 51 => ⟨S3200000x64, .f32⟩
  | 52 => ⟨S3200000x1, .f32⟩
  | 53 => ⟨S3200000x64, .f32⟩
  | 54 => ⟨S3200000x64, .f32⟩
  | 55 => ⟨S_, .f32⟩
  | 56 => ⟨S100000x64, .f32⟩
  | 57 => ⟨S3200000x1, .i32⟩
  | 58 => ⟨S100000x64, .f32⟩
  | 59 => ⟨S100000x1, .f32⟩
  | 60 => ⟨S1x64, .f32⟩
  | 61 => ⟨S100000x64, .f32⟩
  | 62 => ⟨S100000x8, .f32⟩
  | 63 => ⟨S_, .i32⟩
  | 64 => ⟨S3200000, .i32⟩
  | 65 => ⟨S3200000, .i1⟩
  | 66 => ⟨S_, .i32⟩
  | 67 => ⟨S3200000, .i32⟩
  | 68 => ⟨S3200000, .i32⟩
  | 69 => ⟨S3200000, .i32⟩
  | 70 => ⟨S3200000x1, .i32⟩
  | 71 => ⟨S3200000, .f32⟩
  | 72 => ⟨S_, .i32⟩
  | 73 => ⟨S3200000, .i32⟩
  | 74 => ⟨S3200000, .i1⟩
  | 75 => ⟨S_, .i32⟩
  | 76 => ⟨S3200000, .i32⟩
  | 77 => ⟨S3200000, .i32⟩
  | 78 => ⟨S3200000, .i32⟩
  | 79 => ⟨S3200000x1, .i32⟩
  | 80 => ⟨S3200000, .f32⟩
  | 81 => ⟨S3200000, .f32⟩
  | 82 => ⟨S_, .i32⟩
  | 83 => ⟨S3200000, .i32⟩
  | 84 => ⟨S3200000, .i1⟩
  | 85 => ⟨S_, .i32⟩
  | 86 => ⟨S3200000, .i32⟩
  | 87 => ⟨S3200000, .i32⟩
  | 88 => ⟨S3200000, .i32⟩
  | 89 => ⟨S3200000x1, .i32⟩
  | 90 => ⟨S3200000x8, .f32⟩
  | 91 => ⟨S3200000x1, .f32⟩
  | 92 => ⟨S3200000x8, .f32⟩
  | 93 => ⟨S3200000x8, .f32⟩
  | 94 => ⟨S_, .f32⟩
  | 95 => ⟨S100000x8, .f32⟩
  | 96 => ⟨S3200000x1, .i32⟩
  | 97 => ⟨S100000x8, .f32⟩
  | 98 => ⟨S100000x1, .f32⟩
  | 99 => ⟨S1x8, .f32⟩
  | 100 => ⟨S100000x8, .f32⟩
  | 101 => ⟨S100000x1, .f32⟩
  | 102 => ⟨S_, .i32⟩
  | 103 => ⟨S3200000, .i32⟩
  | 104 => ⟨S3200000, .i1⟩
  | 105 => ⟨S_, .i32⟩
  | 106 => ⟨S3200000, .i32⟩
  | 107 => ⟨S3200000, .i32⟩
  | 108 => ⟨S3200000, .i32⟩
  | 109 => ⟨S3200000x1, .i32⟩
  | 110 => ⟨S3200000, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S3200000, .f32⟩
  | 120 => ⟨S3200000, .f32⟩
  | 121 => ⟨S_, .i32⟩
  | 122 => ⟨S3200000, .i32⟩
  | 123 => ⟨S3200000, .i1⟩
  | 124 => ⟨S_, .i32⟩
  | 125 => ⟨S3200000, .i32⟩
  | 126 => ⟨S3200000, .i32⟩
  | 127 => ⟨S3200000, .i32⟩
  | _ => ⟨S100000x1, .f32⟩

abbrev hbmTy0_1 (i : Nat) : BufTy := match i % 128 with
  | 0 => ⟨S3200000x1, .i32⟩
  | 1 => ⟨S3200000x1, .f32⟩
  | 2 => ⟨S3200000x1, .f32⟩
  | 3 => ⟨S3200000x1, .f32⟩
  | 4 => ⟨S_, .f32⟩
  | 5 => ⟨S100000x1, .f32⟩
  | 6 => ⟨S3200000x1, .i32⟩
  | 7 => ⟨S100000x1, .f32⟩
  | 8 => ⟨S100000x1, .f32⟩
  | 9 => ⟨S1x1, .f32⟩
  | 10 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S5000x1, .f32⟩
  | .local _ .vmem, ⟨1, _⟩ => ⟨S5000x1, .f32⟩
  | .local _ .vmem, ⟨2, _⟩ => ⟨S1x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S64x8, .f32⟩
  | .local _ .vmem, ⟨17, _⟩ => ⟨S5000x8, .f32⟩
  | .local _ .vmem, ⟨18, _⟩ => ⟨S5000x8, .f32⟩
  | .local _ .vmem, ⟨19, _⟩ => ⟨S5000x8, .f32⟩
  | .local _ .vmem, ⟨20, _⟩ => ⟨S5000x8, .f32⟩
  | .local _ .vmem, ⟨21, _⟩ => ⟨S5000x8, .f32⟩
  | .local _ .vmem, ⟨22, _⟩ => ⟨S5000x8, .f32⟩
  | .local _ .vmem, ⟨23, _⟩ => ⟨S5000x1, .f32⟩
  | .local _ .vmem, ⟨24, _⟩ => ⟨S5000x1, .f32⟩
  | .local _ .vmem, ⟨25, _⟩ => ⟨S1x8, .f32⟩
  | .local _ .vmem, ⟨26, _⟩ => ⟨S5000x8, .f32⟩
  | .local _ .vmem, ⟨27, _⟩ => ⟨S5000x8, .f32⟩
  | .local _ .vmem, ⟨28, _⟩ => ⟨S5000x8, .f32⟩
  | .local _ .vmem, ⟨29, _⟩ => ⟨S5000x8, .f32⟩
  | .local _ .vmem, ⟨30, _⟩ => ⟨S8x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S5000x1, .f32⟩
  | .local _ .vmem, ⟨35, _⟩ => ⟨S5000x1, .f32⟩
  | .local _ .vmem, ⟨36, _⟩ => ⟨S5000x1, .f32⟩
  | .local _ .vmem, ⟨37, _⟩ => ⟨S5000x1, .f32⟩
  | .local _ .vmem, ⟨38, _⟩ => ⟨S5000x1, .f32⟩
  | .local _ .vmem, ⟨39, _⟩ => ⟨S1x1, .f32⟩
  | .local _ .vmem, ⟨40, _⟩ => ⟨S5000x1, .f32⟩
  | .local _ .vmem, ⟨41, _⟩ => ⟨S5000x1, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_12 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_14 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_15 : Ref sig .tc := ⟨.hbm, 102, rfl⟩
abbrev main_v77 : Ref sig .tc := ⟨.hbm, 103, rfl⟩
abbrev main_v78 : Ref sig .tc := ⟨.hbm, 104, rfl⟩
abbrev main_c_16 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_c_17 : Ref sig .tc := ⟨.hbm, 111, rfl⟩
abbrev main_v84 : Ref sig .tc := ⟨.hbm, 112, rfl⟩
abbrev main_v85 : Ref sig .tc := ⟨.hbm, 113, rfl⟩
abbrev main_c_18 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_c_19 : Ref sig .tc := ⟨.hbm, 121, rfl⟩
abbrev main_v92 : Ref sig .tc := ⟨.hbm, 122, rfl⟩
abbrev main_v93 : Ref sig .tc := ⟨.hbm, 123, rfl⟩
abbrev main_c_20 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_cst_21 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x8 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x8 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x8 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x8 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x8 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S8x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x1 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S5000x1_S5000x1_0_0 : ∀ a, (![0, 0] : Fin 2 → Nat) a + S5000x1.size a ≤ S5000x1.size a
  h_S5000x1 : 0 < S5000x1.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S100000_S100000x1 : S100000.ShapeCasts S100000x1
  shapeCasts_S64_S1x64 : S64.ShapeCasts S1x64
  shapeCasts_S5000x64_S5000x64 : S5000x64.ShapeCasts S5000x64
  shapeCasts_S5000x1_S5000x1 : S5000x1.ShapeCasts S5000x1
  broadcasts_S5000x1_S5000x64 : S5000x1.Broadcasts S5000x64
  shapeCasts_S1x64_S1x64 : S1x64.ShapeCasts S1x64
  broadcasts_S1x64_S5000x64 : S1x64.Broadcasts S5000x64
  inb_S64x8_S64x8_0_0 : ∀ a, (![0, 0] : Fin 2 → Nat) a + S64x8.size a ≤ S64x8.size a
  h_S64x8 : 0 < S64x8.numel
  inb_S5000x8_S5000x8_0_0 : ∀ a, (![0, 0] : Fin 2 → Nat) a + S5000x8.size a ≤ S5000x8.size a
  h_S5000x8 : 0 < S5000x8.numel
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  shapeCasts_S8_S1x8 : S8.ShapeCasts S1x8
  shapeCasts_S5000x8_S5000x8 : S5000x8.ShapeCasts S5000x8
  broadcasts_S5000x1_S5000x8 : S5000x1.Broadcasts S5000x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S8x1_S8x1_0_0 : ∀ a, (![0, 0] : Fin 2 → Nat) a + S8x1.size a ≤ S8x1.size a
  h_S8x1 : 0 < S8x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S3200000x1_S3200000_n_0_0_1_wf : ScatterDims.WF S100000 S3200000x1 S3200000 [] [0] [0] 1
  dot_S5000x1_S1x64_S5000x64_1_0_0_1_n_n_wf : DotDims.WF S5000x1 S1x64 S5000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x8_S5000x8_1_0_0_1_n_n_wf : DotDims.WF S5000x64 S64x8 S5000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S5000x8_S8x1_S5000x1_1_0_0_1_n_n_wf : DotDims.WF S5000x8 S8x1 S5000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x1.size a ≤ S100000x1.size a
  hwx0_0 : ∀ i : grid0.Coords, EltTy.bits .f32 = 32 ∨ (Rect.block (s := S100000x1) S5000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x8.size a ≤ S64x8.size a
  hwx2_1 : ∀ i : grid2.Coords, EltTy.bits .f32 = 32 ∨ (Rect.block (s := S64x8) S64x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x8.size a ≤ S100000x8.size a
  hwx2_2 : ∀ i : grid2.Coords, EltTy.bits .f32 = 32 ∨ (Rect.block (s := S100000x8) S5000x8.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x8.size a ≤ S100000x8.size a
  hwx3_0 : ∀ i : grid3.Coords, EltTy.bits .f32 = 32 ∨ (Rect.block (s := S100000x8) S5000x8.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x8.size a ≤ S100000x8.size a
  hwx3_1 : ∀ i : grid3.Coords, EltTy.bits .f32 = 32 ∨ (Rect.block (s := S100000x8) S5000x8.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x8.size a ≤ S1x8.size a
  hwx3_3 : ∀ i : grid3.Coords, EltTy.bits .f32 = 32 ∨ (Rect.block (s := S1x8) S1x8.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x8.size a ≤ S100000x8.size a
  hwx3_4 : ∀ i : grid3.Coords, EltTy.bits .f32 = 32 ∨ (Rect.block (s := S100000x8) S5000x8.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x8.size a ≤ S100000x8.size a
  hwx4_0 : ∀ i : grid4.Coords, EltTy.bits .f32 = 32 ∨ (Rect.block (s := S100000x8) S5000x8.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S8x1.size a ≤ S8x1.size a
  hwx4_1 : ∀ i : grid4.Coords, EltTy.bits .f32 = 32 ∨ (Rect.block (s := S8x1) S8x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x1.size a ≤ S100000x1.size a
  hwx5_0 : ∀ i : grid5.Coords, EltTy.bits .f32 = 32 ∨ (Rect.block (s := S100000x1) S5000x1.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x1.size a ≤ S1x1.size a
  hwx5_3 : ∀ i : grid5.Coords, EltTy.bits .f32 = 32 ∨ (Rect.block (s := S1x1) S1x1.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x1.size a ≤ S100000x1.size a
  hwx5_4 : ∀ i : grid5.Coords, EltTy.bits .f32 = 32 ∨ (Rect.block (s := S100000x1) S5000x1.size (cc5_transform_4 i) (hinb5_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x1_S1x64_S5000x64_1_0_0_1_n_n : DotDims S5000x1 S1x64 S5000x64 where
  lhsContracting := [1]
  rhsContracting := [0]
  lhsNonContracting := [0]
  rhsNonContracting := [1]
  lhsBatch := []
  rhsBatch := []
  wf := dot_S5000x1_S1x64_S5000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x8_S5000x8_1_0_0_1_n_n : DotDims S5000x64 S64x8 S5000x8 where
  lhsContracting := [1]
  rhsContracting := [0]
  lhsNonContracting := [0]
  rhsNonContracting := [1]
  lhsBatch := []
  rhsBatch := []
  wf := dot_S5000x64_S64x8_S5000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S5000x8_S8x1_S5000x1_1_0_0_1_n_n : DotDims S5000x8 S8x1 S5000x1 where
  lhsContracting := [1]
  rhsContracting := [0]
  lhsNonContracting := [0]
  rhsNonContracting := [1]
  lhsBatch := []
  rhsBatch := []
  wf := dot_S5000x8_S8x1_S5000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

abbrev win0_0 : Pipeline.Window sig grid0 :=
  Pipeline.Window.ofSpec (Memref.whole main_arg0) S5000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x8.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x8.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S5000x8.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S5000x8.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S5000x8.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v75) S5000x8.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S8x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S5000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v103) S5000x1.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v104) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v105) S1x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S5000x1.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S1x64 : Shape := ⟨2, ![1, 64]⟩
abbrev S64 : Shape := ⟨1, ![64]⟩
abbrev S64x8 : Shape := ⟨2, ![64, 8]⟩
abbrev S8 : Shape := ⟨1, ![8]⟩
abbrev S8x1 : Shape := ⟨2, ![8, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S3200000x64 : Shape := ⟨2, ![3200000, 64]⟩
abbrev S100000x8 : Shape := ⟨2, ![100000, 8]⟩
abbrev S3200000x8 : Shape := ⟨2, ![3200000, 8]⟩
abbrev S1x8 : Shape := ⟨2, ![1, 8]⟩
abbrev S1x1 : Shape := ⟨2, ![1, 1]⟩

abbrev nBuf : Space → Nat
  | .hbm => 158
  | .vmem => 0
  | .smem => 0
  | _ => 0

abbrev hbmTy0_0 (i : Nat) : BufTy := match i % 128 with
  | 0 => ⟨S100000x1, .f32⟩
  | 1 => ⟨S2x3200000, .i32⟩
  | 2 => ⟨S1x64, .f32⟩
  | 3 => ⟨S64, .f32⟩
  | 4 => ⟨S64x8, .f32⟩
  | 5 => ⟨S8, .f32⟩
  | 6 => ⟨S8x1, .f32⟩
  | 7 => ⟨S1, .f32⟩
  | 8 => ⟨S1x3200000, .i32⟩
  | 9 => ⟨S3200000, .i32⟩
  | 10 => ⟨S1x3200000, .i32⟩
  | 11 => ⟨S3200000, .i32⟩
  | 12 => ⟨S_, .f32⟩
  | 13 => ⟨S3200000, .f32⟩
  | 14 => ⟨S_, .f32⟩
  | 15 => ⟨S100000, .f32⟩
  | 16 => ⟨S3200000x1, .i32⟩
  | 17 => ⟨S100000, .f32⟩
  | 18 => ⟨S_, .f32⟩
  | 19 => ⟨S100000, .f32⟩
  | 20 => ⟨S100000, .f32⟩
  | 21 => ⟨S100000, .f32⟩
  | 22 => ⟨S100000x64, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000, .f32⟩
  | 32 => ⟨S_, .i32⟩
  | 33 => ⟨S3200000, .i32⟩
  | 34 => ⟨S3200000, .i1⟩
  | 35 => ⟨S_, .i32⟩
  | 36 => ⟨S3200000, .i32⟩
  | 37 => ⟨S3200000, .i32⟩
  | 38 => ⟨S3200000, .i32⟩
  | 39 => ⟨S3200000x1, .i32⟩
  | 40 => ⟨S3200000, .f32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000x64, .f32⟩
  | 51 => ⟨S3200000x1, .f32⟩
  | 52 => ⟨S3200000x64, .f32⟩
  | 53 => ⟨S3200000x64, .f32⟩
  | 54 => ⟨S_, .f32⟩
  | 55 => ⟨S100000x64, .f32⟩
  | 56 => ⟨S3200000x1, .i32⟩
  | 57 => ⟨S100000x64, .f32⟩
  | 58 => ⟨S100000, .f32⟩
  | 59 => ⟨S100000x1, .f32⟩
  | 60 => ⟨S100000x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S100000x64, .f32⟩
  | 68 => ⟨S100000x64, .f32⟩
  | 69 => ⟨S100000x8, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000, .f32⟩
  | 79 => ⟨S_, .i32⟩
  | 80 => ⟨S3200000, .i32⟩
  | 81 => ⟨S3200000, .i1⟩
  | 82 => ⟨S_, .i32⟩
  | 83 => ⟨S3200000, .i32⟩
  | 84 => ⟨S3200000, .i32⟩
  | 85 => ⟨S3200000, .i32⟩
  | 86 => ⟨S3200000x1, .i32⟩
  | 87 => ⟨S3200000, .f32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000x8, .f32⟩
  | 98 => ⟨S3200000x1, .f32⟩
  | 99 => ⟨S3200000x8, .f32⟩
  | 100 => ⟨S3200000x8, .f32⟩
  | 101 => ⟨S_, .f32⟩
  | 102 => ⟨S100000x8, .f32⟩
  | 103 => ⟨S3200000x1, .i32⟩
  | 104 => ⟨S100000x8, .f32⟩
  | 105 => ⟨S100000, .f32⟩
  | 106 => ⟨S100000x1, .f32⟩
  | 107 => ⟨S100000x8, .f32⟩
  | 108 => ⟨S100000x8, .f32⟩
  | 109 => ⟨S100000x8, .f32⟩
  | 110 => ⟨S1x8, .f32⟩
  | 111 => ⟨S100000x8, .f32⟩
  | 112 => ⟨S100000x8, .f32⟩
  | 113 => ⟨S_, .f32⟩
  | 114 => ⟨S100000x8, .f32⟩
  | 115 => ⟨S100000x8, .f32⟩
  | 116 => ⟨S100000x1, .f32⟩
  | 117 => ⟨S_, .i32⟩
  | 118 => ⟨S3200000, .i32⟩
  | 119 => ⟨S3200000, .i1⟩
  | 120 => ⟨S_, .i32⟩
  | 121 => ⟨S3200000, .i32⟩
  | 122 => ⟨S3200000, .i32⟩
  | 123 => ⟨S3200000, .i32⟩
  | 124 => ⟨S3200000x1, .i32⟩
  | 125 => ⟨S3200000, .f32⟩
  | 126 => ⟨S_, .i32⟩
  | 127 => ⟨S3200000, .i32⟩
  | _ => ⟨S100000x1, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S3200000, .f32⟩
  | 7 => ⟨S3200000, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000x1, .f32⟩
  | 17 => ⟨S3200000x1, .f32⟩
  | 18 => ⟨S3200000x1, .f32⟩
  | 19 => ⟨S_, .f32⟩
  | 20 => ⟨S100000x1, .f32⟩
  | 21 => ⟨S3200000x1, .i32⟩
  | 22 => ⟨S100000x1, .f32⟩
  | 23 => ⟨S100000, .f32⟩
  | 24 => ⟨S100000x1, .f32⟩
  | 25 => ⟨S100000x1, .f32⟩
  | 26 => ⟨S100000x1, .f32⟩
  | 27 => ⟨S1x1, .f32⟩
  | 28 => ⟨S100000x1, .f32⟩
  | 29 => ⟨S100000x1, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_c_8 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_10 : Ref sig .tc := ⟨.hbm, 79, rfl⟩
abbrev main_v57 : Ref sig .tc := ⟨.hbm, 80, rfl⟩
abbrev main_v58 : Ref sig .tc := ⟨.hbm, 81, rfl⟩
abbrev main_c_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_12 : Ref sig .tc := ⟨.hbm, 89, rfl⟩
abbrev main_v65 : Ref sig .tc := ⟨.hbm, 90, rfl⟩
abbrev main_v66 : Ref sig .tc := ⟨.hbm, 91, rfl⟩
abbrev main_c_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_14 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call1_cst : Ref sig .tc := ⟨.hbm, 113, rfl⟩
abbrev main_call1_v0 : Ref sig .tc := ⟨.hbm, 114, rfl⟩
abbrev main_v86 : Ref sig .tc := ⟨.hbm, 115, rfl⟩
abbrev main_v87 : Ref sig .tc := ⟨.hbm, 116, rfl⟩
abbrev main_c_15 : Ref sig .tc := ⟨.hbm, 117, rfl⟩
abbrev main_v88 : Ref sig .tc := ⟨.hbm, 118, rfl⟩
abbrev main_v89 : Ref sig .tc := ⟨.hbm, 119, rfl⟩
abbrev main_c_16 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_c_17 : Ref sig .tc := ⟨.hbm, 126, rfl⟩
abbrev main_v95 : Ref sig .tc := ⟨.hbm, 127, rfl⟩
abbrev main_v96 : Ref sig .tc := ⟨.hbm, 128, rfl⟩
abbrev main_c_18 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_21 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x8_0_1 : S3200000x1.BroadcastsInDim S3200000x8 (![0, 1] : Fin 2 → Fin S3200000x8.rank)
  bcast_S_S100000x8 : S_.BroadcastsInDim S100000x8 (![] : Fin 0 → Fin S100000x8.rank)
  bcast_S100000x1_S100000x8_0_1 : S100000x1.BroadcastsInDim S100000x8 (![0, 1] : Fin 2 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3200000x1_S3200000_n_0_0_1_wf : ScatterDims.WF S100000 S3200000x1 S3200000 [] [0] [0] 1
  dot_S100000x1_S1x64_S100000x64_1_0_0_1_n_n_wf : DotDims.WF S100000x1 S1x64 S100000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x8_S100000x8_1_0_0_1_n_n_wf : DotDims.WF S100000x64 S64x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S100000x8_S8x1_S100000x1_1_0_0_1_n_n_wf : DotDims.WF S100000x8 S8x1 S100000x1 [1] [0] [0] [1] [] []
  gather_S100000x1_S3200000x1_S3200000x1_1_0_n_n_0_1_11_wf : GatherDims.WF S100000x1 S3200000x1 S3200000x1 [1] [0] [] [0] [] 1 ![1, 1]
  scatter_S100000x1_S3200000x1_S3200000x1_1_0_0_1_wf : ScatterDims.WF S100000x1 S3200000x1 S3200000x1 [1] [0] [0] 1

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x1_S1x64_S100000x64_1_0_0_1_n_n : DotDims S100000x1 S1x64 S100000x64 where
  lhsContracting := [1]
  rhsContracting := [0]
  lhsNonContracting := [0]
  rhsNonContracting := [1]
  lhsBatch := []
  rhsBatch := []
  wf := dot_S100000x1_S1x64_S100000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x8_S100000x8_1_0_0_1_n_n : DotDims S100000x64 S64x8 S100000x8 where
  lhsContracting := [1]
  rhsContracting := [0]
  lhsNonContracting := [0]
  rhsNonContracting := [1]
  lhsBatch := []
  rhsBatch := []
  wf := dot_S100000x64_S64x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x8_S8x1_S100000x1_1_0_0_1_n_n : DotDims S100000x8 S8x1 S100000x1 where
  lhsContracting := [1]
  rhsContracting := [0]
  lhsNonContracting := [0]
  rhsNonContracting := [1]
  lhsBatch := []
  rhsBatch := []
  wf := dot_S100000x8_S8x1_S100000x1_1_0_0_1_n_n_wf
def gather_S100000x1_S3200000x1_S3200000x1_1_0_n_n_0_1_11 : GatherDims S100000x1 S3200000x1 S3200000x1 where
  offsetDims := [1]
  collapsedSliceDims := [0]
  operandBatchingDims := []
  startIndicesBatchingDims := []
  startIndexMap := [0]
  indexVectorDim := 1
  sliceSizes := ![1, 1]
  wf := gather_S100000x1_S3200000x1_S3200000x1_1_0_n_n_0_1_11_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf

class Facts : Prop extends Facts₀ where

variable [Facts]
-- ==== Proof.KernelRun.lean ====
/-
  The idealized kernel's run with its result named.

  @main is ten segments: four stretches of host operations and six row-blocked regions. Every weakly fair execution
  runs them in order and ends with each unscoped buffer holding the last boundary's contents: host stretches
  applied in order, and at each region its output array replaced by what the region's write-backs leave. Read at
  the result's buffer this names the program's value; read at the arguments' it says they are unchanged.
-/
import proofs.«105934_j70050916598067_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault, the result buffer at the last boundary's contents and
    the argument arrays as launched. -/
theorem run : θ_run defs (onTc (τ := τ) (main (F := F))) ⟨m, fun _ => 0, ρ⟩ (fun r => ∀ c : Dev nD,
      r.2.mem ((c.tc : Thread nD τ).loc main_v106) = W10 m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v106 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.Named

end
-- ==== Proof.ProjectC.lean ====
/-
  The third projection, h = a₂ · W₃ (a₂ the second layer's activations), over the node axis in row blocks.

  The array has 100000 rows and the grid 20 points; point t holds rows 5000·t … 5000·t + 4999 of the left
  operand (8 columns) and the whole of the right operand (8 rows, 1 columns), and writes rows 5000·t … of the
  result. On the extended reals the block product into a zero accumulator is, entry by entry, the plain sum over
  the contracted axis of row entry times column entry; a change of float format and a cast to the same shape are
  the identity. Row r of block t is row 5000·t + r of the array, so every block is the restriction of ONE function
  of the whole arrays: entry (n, f) is the sum over k of left (n, k) times right (k, f). The 20 blocks tile the
  rows, so the result array ends as that function.
-/
import proofs.«105934_j70050916598067_1_alg».proof.Proof.Gen.KernelIdeal.Frame
import proofs.«105934_j70050916598067_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.ProjectC

open Idealize.ShloMosaic Idealize.ShloMosaic.TcCoe Idealize.SL.Sem
open Idealize.ShloMosaic.Pipeline (Dat)
open Cert.KernelIdeal Cert.KernelIdeal.Gen

/-- The block product's dimension record. -/
abbrev D : DotDims S5000x8 S8x1 S5000x1 := dot_S5000x8_S8x1_S5000x1_1_0_0_1_n_n

/-- The left factor of entry j's k-th term sits at (row of j, k). -/
abbrev lft (j : S5000x1.Idx) (k : Fin 8) : S5000x8.Idx := fun a => match a with
  | ⟨0, _⟩ => ⟨(j 0).val, (j 0).isLt⟩
  | ⟨1, _⟩ => ⟨k.val, k.isLt⟩
/-- The right factor sits at (k, column of j). -/
abbrev rgt (j : S5000x1.Idx) (k : Fin 8) : S8x1.Idx := fun a => match a with
  | ⟨0, _⟩ => ⟨k.val, k.isLt⟩
  | ⟨1, _⟩ => ⟨(j 1).val, (j 1).isLt⟩

theorem lhs_row (j : S5000x1.Idx) (q : D.contr.Idx) : (D.lhsIdx j q 0).val = (j 0).val := by
  unfold DotDims.lhsIdx
  rw [dif_neg (show ¬(0 : Fin S5000x8.rank) ∈ D.lhsBatch by decide), dif_pos (show (0 : Fin S5000x8.rank) ∈ D.lhsNonContracting by decide)]
  rfl
theorem lhs_con (j : S5000x1.Idx) (q : D.contr.Idx) : (D.lhsIdx j q 1).val = (q ⟨0, by decide⟩).val :=
  D.lhsIdx_val_of_single rfl j q
theorem rhs_con (j : S5000x1.Idx) (q : D.contr.Idx) : (D.rhsIdx j q 0).val = (q ⟨0, by decide⟩).val :=
  D.rhsIdx_val_of_single rfl j q
theorem rhs_col (j : S5000x1.Idx) (q : D.contr.Idx) : (D.rhsIdx j q 1).val = (j 1).val := by
  unfold DotDims.rhsIdx
  rw [dif_neg (show ¬(1 : Fin S8x1.rank) ∈ D.rhsBatch by decide), dif_pos (show (1 : Fin S8x1.rank) ∈ D.rhsNonContracting by decide)]
  rfl

/-- One entry of the block product: the sum over the contracted axis of row entry times column entry. -/
theorem block_entry (x0 : FVec Ideal S5000x8 .f32) (x1 : FVec Ideal S8x1 .f32) (j : S5000x1.Idx) :
    k4_pay1 (F := Ideal) x0 x1 j = ∑ k : Fin 8, x0 (lft j k) * x1 (rgt j k) := by
  unfold k4_pay1
  rw [shapeCast_self]
  refine (Ideal.matmul_constant_zero_apply D none _ _ j).trans ?_
  rw [← Equiv.sum_comp (ValueIdx.contrEquiv1 D 8 rfl rfl).symm]
  refine Finset.sum_congr rfl fun k _ => ?_
  have hk := ValueIdx.contrEquiv1_symm_val D 8 rfl rfl k
  have el : D.lhsIdx j ((ValueIdx.contrEquiv1 D 8 rfl rfl).symm k) = lft j k := funext fun a => Fin.ext (by
    match a with
    | ⟨0, _⟩ => exact lhs_row _ _
    | ⟨1, _⟩ => exact (lhs_con _ _).trans hk)
  have er : D.rhsIdx j ((ValueIdx.contrEquiv1 D 8 rfl rfl).symm k) = rgt j k := funext fun a => Fin.ext (by
    match a with
    | ⟨0, _⟩ => exact (rhs_con _ _).trans hk
    | ⟨1, _⟩ => exact rhs_col _ _)
  rw [el, er]
  rfl

theorem origin : (![0, 0] : Fin 2 → Nat) = fun _ => 0 := funext fun a => by fin_cases a <;> rfl

/-- The index maps over the grid: the left block and the result block move together along the rows, the right
    operand stays. -/
theorem maps : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0
    ∧ win4_2.index t (0 : Fin 2) ≤ 19 :=
  (by decide +kernel : ∀ t : Fin grid4.N, _)

/-- Every row block is some point's. -/
theorem onto : ∀ q : Fin 20, ∃ t : Fin cfg4.N, win4_2.index t = ![q.val, 0] :=
  (by decide +kernel : ∀ q : Fin 20, ∃ t : Fin grid4.N, win4_2.index t = ![q.val, 0])

/-- The matrix product of whole arrays, entry by entry. -/
abbrev G (X : S100000x8.Idx → EReal) (W : S8x1.Idx → EReal) : S100000x1.Idx → EReal :=
  fun i => ∑ k : Fin 8, X (Cert.ReferenceIdeal.Read.lidx_main_v87 i k) * W (Cert.ReferenceIdeal.Read.ridx_main_v87 i k)

variable (V : (c : Dev nD) → (b : Ref sig .tc) → Buf (Elt Ideal) ((c : Thread nD τ).loc b))

/-- What point t writes back is block t of the product of the whole arrays. -/
theorem flushed_eq (c : Dev nD) (t : Fin cfg4.N) :
    (dat4 (F := Ideal) V c).flushed 2 t
      = ((cfg4.win 2).blk t).view.read (Elt Ideal) (G (V c main_v75) (V c main_arg6)) := by
  show (cfg4.win 2).cut (grid4.coords t) ((dat4 (F := Ideal) V c).after 2 t) = _
  rw [after4_2]
  unfold out4_2
  rw [View.canon_unit_zero origin]
  simp only [View.ld_unit_zero (S := S5000x8) origin, View.ld_unit_zero (S := S8x1) origin]
  obtain ⟨e0, e1, e2, e3, e4, e5⟩ := maps t
  funext j
  show k4_pay1 (F := Ideal) (iblk4 V c 0 t) (iblk4 V c 1 t) j
    = G (V c main_v75) (V c main_arg6) (((cfg4.win 2).blk t).view.emb j)
  refine (block_entry _ _ j).trans ?_
  refine Finset.sum_congr rfl fun k _ => ?_
  have h0 : ((cfg4.win 0).blk t).view.emb (lft j k)
      = Cert.ReferenceIdeal.Read.lidx_main_v87 (((cfg4.win 2).blk t).view.emb j) k := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 8 + 1 * k.val = k.val; omega
  have h1 : ((cfg4.win 1).blk t).view.emb (rgt j k)
      = Cert.ReferenceIdeal.Read.ridx_main_v87 (((cfg4.win 2).blk t).view.emb j) k := by
    funext a; apply Fin.ext
    match a with
    | ⟨0, _⟩ => show win4_1.index t (0 : Fin 2) * 8 + 1 * k.val = k.val; omega
    | ⟨1, _⟩ => show win4_1.index t (1 : Fin 2) * 1 + 1 * (j 1).val = win4_2.index t (1 : Fin 2) * 1 + 1 * (j 1).val; omega
  have e0' : (iblk4 V c 0 t (lft j k) : EReal)
      = (V c main_v75 : S100000x8.Idx → EReal) (Cert.ReferenceIdeal.Read.lidx_main_v87 (((cfg4.win 2).blk t).view.emb j) k) :=
    congrArg (V c main_v75 : S100000x8.Idx → EReal) h0
  have e1' : (iblk4 V c 1 t (rgt j k) : EReal)
      = (V c main_arg6 : S8x1.Idx → EReal) (Cert.ReferenceIdeal.Read.ridx_main_v87 (((cfg4.win 2).blk t).view.emb j) k) :=
    congrArg (V c main_arg6 : S8x1.Idx → EReal) h1
  exact congrArg₂ (fun (a b : EReal) => a * b) e0' e1'

/-- Membership in point t's block, coordinate by coordinate. -/
theorem mem_blk (t : Fin cfg4.N) (i : S100000x1.Idx) :
    i ∈ ((cfg4.win 2).blk t).view.set ↔ ∀ a : Fin 2, win4_2.index t a * S5000x1.size a ≤ (i a).val ∧ (i a).val < win4_2.index t a * S5000x1.size a + S5000x1.size a := by
  show i ∈ ((View.whole main_v76).slice (win4_2.rect t)).set ↔ _
  rw [View.set_slice_whole, Rect.mem_set_unit]
  exact Iff.rfl

/-- The blocks tile the array: row r lies in block r / 5000. -/
theorem cover (i : S100000x1.Idx) : ∃ t : Fin cfg4.N, (cfg4.win 2).flush t = true ∧ i ∈ ((cfg4.win 2).blk t).view.set := by
  have hi0 : (i 0).val < 100000 := (i 0).isLt
  have hi1 : (i 1).val < 1 := (i 1).isLt
  obtain ⟨t, ht⟩ := onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 1 ≤ (i 1).val ∧ (i 1).val < win4_2.index t (1 : Fin 2) * 1 + 1; omega

/-- The result array after the region is the matrix product of the arrays the region found. -/
theorem final (c : Dev nD) :
    (dat4 (F := Ideal) V c).arrAt 2 cfg4.N = G (V c main_v75) (V c main_arg6) :=
  (dat4 (F := Ideal) V c).arrAt_eq_of_cover 2 _ (fun t _ => flushed_eq V c t) cover

end Cert.KernelIdeal.ProjectC

end
-- ==== Proof.CombineC.lean ====
/-
  The last layer's combine step: neighbour sum + self loop + bias (no relu), over the node axis in row blocks.

  Point t of the 20 holds rows 5000·t … 5000·t + 4999 of the aggregated neighbour sums, of the projected
  features and of the squared inverse-root degree (one column), and the whole bias row, and writes the same rows of
  the result. The body is pointwise: entry (r, f) of the block is aggregate(r, f) + feature(r, f) · degree factor(r)
  + bias(f); the degree column is spread over the one lane and the bias row over the rows. Row r of block t is
  row 5000·t + r of each array, so every block is the restriction of ONE function of the whole arrays, and the 20
  blocks tile the rows.
-/
import proofs.«105934_j70050916598067_1_alg».proof.Proof.Gen.KernelIdeal.Frame
import proofs.«105934_j70050916598067_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.CombineC

open Idealize.ShloMosaic Idealize.ShloMosaic.TcCoe Idealize.SL.Sem
open Idealize.ShloMosaic.Pipeline (Dat)
open Cert.KernelIdeal Cert.KernelIdeal.Gen

/-- Where the bias of block entry j sits in the [1, 1] row: (0, column of j). -/
abbrev brow (j : S5000x1.Idx) : S1x1.Idx := fun a => match a with
  | ⟨0, _⟩ => ⟨0, Nat.one_pos⟩
  | ⟨1, _⟩ => ⟨0, Nat.one_pos⟩

/-- One entry of the body's result. -/
theorem block_entry (x0 x6 : FVec Ideal S5000x1 .f32) (x2 : FVec Ideal S5000x1 .f32) (x9 : FVec Ideal S1x1 .f32) (j : S5000x1.Idx) :
    k5_pay1 (F := Ideal) x0 x2 x6 x9 j = (x6 j + x0 j * x2 j) + x9 (brow j) := by
  unfold k5_pay1
  simp only [shapeCast_self]
  simp only [ValueIdx.maximumf_apply, ValueIdx.addf_apply, ValueIdx.mulf_apply]
  rw [broadcastTo_apply x9 _ j (brow j) (fun a => match a with
      | ⟨0, _⟩ => by show 0 = if (1 : Nat) = 1 then 0 else (j 0).val; rw [if_pos rfl]
      | ⟨1, _⟩ => by show 0 = if (1 : Nat) = 1 then 0 else (j 1).val; rw [if_pos rfl])]

theorem origin : (![0, 0] : Fin 2 → Nat) = fun _ => 0 := funext fun a => by fin_cases a <;> rfl

/-- The index maps over the grid: the three row-blocked inputs and the result move together along the rows; the
    bias row stays. -/
theorem maps : ∀ t : Fin cfg5.N, win5_0.index t (0 : Fin 2) = win5_4.index t (0 : Fin 2)
    ∧ win5_0.index t (1 : Fin 2) = 0
    ∧ win5_1.index t (0 : Fin 2) = win5_4.index t (0 : Fin 2)
    ∧ win5_1.index t (1 : Fin 2) = 0
    ∧ win5_2.index t (0 : Fin 2) = win5_4.index t (0 : Fin 2)
    ∧ win5_2.index t (1 : Fin 2) = 0
    ∧ win5_3.index t (0 : Fin 2) = 0
    ∧ win5_3.index t (1 : Fin 2) = 0
    ∧ win5_4.index t (1 : Fin 2) = 0
    ∧ win5_4.index t (0 : Fin 2) ≤ 19 :=
  (by decide +kernel : ∀ t : Fin grid5.N, _)

/-- Every row block is some point's. -/
theorem onto : ∀ q : Fin 20, ∃ t : Fin cfg5.N, win5_4.index t = ![q.val, 0] :=
  (by decide +kernel : ∀ q : Fin 20, ∃ t : Fin grid5.N, win5_4.index t = ![q.val, 0])

/-- The layer's combine step on whole arrays, entry by entry. -/
abbrev G (A H : S100000x1.Idx → EReal) (Dc : S100000x1.Idx → EReal) (Br : S1x1.Idx → EReal) : S100000x1.Idx → EReal :=
  fun i => (A i + H i * Dc (i)) + Br (Cert.ReferenceIdeal.Read.idx_main_v120 i)

variable (V : (c : Dev nD) → (b : Ref sig .tc) → Buf (Elt Ideal) ((c : Thread nD τ).loc b))

/-- What point t writes back is block t of the combine step of the whole arrays. -/
theorem flushed_eq (c : Dev nD) (t : Fin cfg5.N) :
    (dat5 (F := Ideal) V c).flushed 4 t
      = ((cfg5.win 4).blk t).view.read (Elt Ideal) (G (V c main_v103) (V c main_v76) (V c main_v104) (V c main_v105)) := by
  show (cfg5.win 4).cut (grid5.coords t) ((dat5 (F := Ideal) V c).after 4 t) = _
  rw [after5_4]
  unfold out5_4
  rw [View.canon_unit_zero origin]
  simp only [View.ld_unit_zero (S := S5000x1) origin, View.ld_unit_zero (S := S5000x1) origin, View.ld_unit_zero (S := S1x1) origin]
  obtain ⟨e0, e1, e2, e3, e4, e5, e6, e7, e8, e9⟩ := maps t
  funext j
  show k5_pay1 (F := Ideal) (iblk5 V c 1 t) (iblk5 V c 2 t) (iblk5 V c 0 t) (iblk5 V c 3 t) j
    = G (V c main_v103) (V c main_v76) (V c main_v104) (V c main_v105) (((cfg5.win 4).blk t).view.emb j)
  refine (block_entry _ _ _ _ j).trans ?_
  have h0 : ((cfg5.win 0).blk t).view.emb j = ((cfg5.win 4).blk t).view.emb j := by
    funext a; apply Fin.ext
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 1 + 1 * (j 1).val = win5_4.index t (1 : Fin 2) * 1 + 1 * (j 1).val; omega
  have h1 : ((cfg5.win 1).blk t).view.emb j = ((cfg5.win 4).blk t).view.emb j := by
    funext a; apply Fin.ext
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 1 + 1 * (j 1).val = win5_4.index t (1 : Fin 2) * 1 + 1 * (j 1).val; omega
  have h2 : ((cfg5.win 2).blk t).view.emb (j)
      = ((cfg5.win 4).blk t).view.emb j := by
    funext a; apply Fin.ext
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 1 + 1 * (j 1).val = win5_4.index t (1 : Fin 2) * 1 + 1 * (j 1).val; omega
  have h3 : ((cfg5.win 3).blk t).view.emb (brow j)
      = Cert.ReferenceIdeal.Read.idx_main_v120 (((cfg5.win 4).blk t).view.emb j) := by
    funext a; apply Fin.ext
    match a with
    | ⟨0, _⟩ => show win5_3.index t (0 : Fin 2) * 1 + 1 * 0 = 0; omega
    | ⟨1, _⟩ => show win5_3.index t (1 : Fin 2) * 1 + 1 * 0 = 0; omega
  have eA : (iblk5 V c 0 t j : EReal) = (V c main_v103 : S100000x1.Idx → EReal) (((cfg5.win 4).blk t).view.emb j) :=
    congrArg (V c main_v103 : S100000x1.Idx → EReal) h0
  have eH : (iblk5 V c 1 t j : EReal) = (V c main_v76 : S100000x1.Idx → EReal) (((cfg5.win 4).blk t).view.emb j) :=
    congrArg (V c main_v76 : S100000x1.Idx → EReal) h1
  have eD : (iblk5 V c 2 t (j) : EReal)
      = (V c main_v104 : S100000x1.Idx → EReal) (((cfg5.win 4).blk t).view.emb j) :=
    congrArg (V c main_v104 : S100000x1.Idx → EReal) h2
  have eB : (iblk5 V c 3 t (brow j) : EReal)
      = (V c main_v105 : S1x1.Idx → EReal) (Cert.ReferenceIdeal.Read.idx_main_v120 (((cfg5.win 4).blk t).view.emb j)) :=
    congrArg (V c main_v105 : S1x1.Idx → EReal) h3
  rw [eA, eH, eD, eB]

/-- Membership in point t's block, coordinate by coordinate. -/
theorem mem_blk (t : Fin cfg5.N) (i : S100000x1.Idx) :
    i ∈ ((cfg5.win 4).blk t).view.set ↔ ∀ a : Fin 2, win5_4.index t a * S5000x1.size a ≤ (i a).val ∧ (i a).val < win5_4.index t a * S5000x1.size a + S5000x1.size a := by
  show i ∈ ((View.whole main_v106).slice (win5_4.rect t)).set ↔ _
  rw [View.set_slice_whole, Rect.mem_set_unit]
  exact Iff.rfl

/-- The blocks tile the array: row r lies in block r / 5000. -/
theorem cover (i : S100000x1.Idx) : ∃ t : Fin cfg5.N, (cfg5.win 4).flush t = true ∧ i ∈ ((cfg5.win 4).blk t).view.set := by
  have hi0 : (i 0).val < 100000 := (i 0).isLt
  have hi1 : (i 1).val < 1 := (i 1).isLt
  obtain ⟨t, ht⟩ := onto ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 1 ≤ (i 1).val ∧ (i 1).val < win5_4.index t (1 : Fin 2) * 1 + 1; omega

/-- The result array after the region is the combine step of the arrays the region found. -/
theorem final (c : Dev nD) :
    (dat5 (F := Ideal) V c).arrAt 4 cfg5.N = G (V c main_v103) (V c main_v76) (V c main_v104) (V c main_v105) :=
  (dat5 (F := Ideal) V c).arrAt_eq_of_cover 4 _ (fun t _ => flushed_eq V c t) cover

end Cert.KernelIdeal.CombineC

end
-- ==== Proof.Recast.lean ====
/-
  A per-node vector recast as a one-column array, and a bias vector recast as a one-row array, read at an index:
  the column's entry (n, 0) is the vector's entry n, and the row's entry (0, f) is the vector's entry f, since the
  row-major position of (n, 0) in [N, 1] is n and of (0, f) in [1, F] is f.
-/
import proofs.«105934_j70050916598067_1_alg».proof.KernelIdeal
import Idealize.ShloMosaic.Lib.Pipeline.Value
import Idealize.ShloMosaic.Lib.ValueIdx

noncomputable section

namespace Cert.KernelIdeal.Recast

open Idealize.ShloMosaic Cert.KernelIdeal

theorem column (d : S100000.Idx → EReal) (h : S100000.ShapeCasts S100000x1) (i : S100000x1.Idx) (k : S100000.Idx)
    (hk : (k 0).val = (i 0).val) : shapeCast S100000x1 d h i = d k :=
  shapeCast_apply d h i k (by
    have h' : (i 1).val < 1 := (i 1).isLt
    rw [Shape.rowMajor_val_two, Shape.rowMajor_val_one]
    show (k 0).val = (i 0).val * 1 + (i 1).val
    omega)

theorem row64 (b : S64.Idx → EReal) (h : S64.ShapeCasts S1x64) (i : S1x64.Idx) (k : S64.Idx) (hk : (k 0).val = (i 1).val) :
    shapeCast S1x64 b h i = b k :=
  shapeCast_apply b h i k (by
    have h' : (i 0).val < 1 := (i 0).isLt
    rw [Shape.rowMajor_val_two, Shape.rowMajor_val_one]
    show (k 0).val = (i 0).val * 64 + (i 1).val
    omega)

theorem row8 (b : S8.Idx → EReal) (h : S8.ShapeCasts S1x8) (i : S1x8.Idx) (k : S8.Idx) (hk : (k 0).val = (i 1).val) :
    shapeCast S1x8 b h i = b k :=
  shapeCast_apply b h i k (by
    have h' : (i 0).val < 1 := (i 0).isLt
    rw [Shape.rowMajor_val_two, Shape.rowMajor_val_one]
    show (k 0).val = (i 0).val * 8 + (i 1).val
    omega)

theorem row1 (b : S1.Idx → EReal) (h : S1.ShapeCasts S1x1) (i : S1x1.Idx) (k : S1.Idx) :
    shapeCast S1x1 b h i = b k :=
  shapeCast_apply b h i k (by
    have h0 : (i 0).val < 1 := (i 0).isLt
    have h1 : (i 1).val < 1 := (i 1).isLt
    have hk : (k 0).val < 1 := (k 0).isLt
    rw [Shape.rowMajor_val_two, Shape.rowMajor_val_one]
    show (k 0).val = (i 0).val * 1 + (i 1).val
    omega)

end Cert.KernelIdeal.Recast

end
-- ==== Proof.ProjectB.lean ====
/-
  The second projection, h = a₁ · W₂ (a₁ the first layer's activations), over the node axis in row blocks.

  The array has 100000 rows and the grid 20 points; point t holds rows 5000·t … 5000·t + 4999 of the left
  operand (64 columns) and the whole of the right operand (64 rows, 8 columns), and writes rows 5000·t … of the
  result. On the extended reals the block product into a zero accumulator is, entry by entry, the plain sum over
  the contracted axis of row entry times column entry; a change of float format and a cast to the same shape are
  the identity. Row r of block t is row 5000·t + r of the array, so every block is the restriction of ONE function
  of the whole arrays: entry (n, f) is the sum over k of left (n, k) times right (k, f). The 20 blocks tile the
  rows, so the result array ends as that function.
-/
import proofs.«105934_j70050916598067_1_alg».proof.Proof.Gen.KernelIdeal.Frame
import proofs.«105934_j70050916598067_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.ProjectB

open Idealize.ShloMosaic Idealize.ShloMosaic.TcCoe Idealize.SL.Sem
open Idealize.ShloMosaic.Pipeline (Dat)
open Cert.KernelIdeal Cert.KernelIdeal.Gen

/-- The block product's dimension record. -/
abbrev D : DotDims S5000x64 S64x8 S5000x8 := dot_S5000x64_S64x8_S5000x8_1_0_0_1_n_n

/-- The left factor of entry j's k-th term sits at (row of j, k). -/
abbrev lft (j : S5000x8.Idx) (k : Fin 64) : S5000x64.Idx := fun a => match a with
  | ⟨0, _⟩ => ⟨(j 0).val, (j 0).isLt⟩
  | ⟨1, _⟩ => ⟨k.val, k.isLt⟩
/-- The right factor sits at (k, column of j). -/
abbrev rgt (j : S5000x8.Idx) (k : Fin 64) : S64x8.Idx := fun a => match a with
  | ⟨0, _⟩ => ⟨k.val, k.isLt⟩
  | ⟨1, _⟩ => ⟨(j 1).val, (j 1).isLt⟩

theorem lhs_row (j : S5000x8.Idx) (q : D.contr.Idx) : (D.lhsIdx j q 0).val = (j 0).val := by
  unfold DotDims.lhsIdx
  rw [dif_neg (show ¬(0 : Fin S5000x64.rank) ∈ D.lhsBatch by decide), dif_pos (show (0 : Fin S5000x64.rank) ∈ D.lhsNonContracting by decide)]
  rfl
theorem lhs_con (j : S5000x8.Idx) (q : D.contr.Idx) : (D.lhsIdx j q 1).val = (q ⟨0, by decide⟩).val :=
  D.lhsIdx_val_of_single rfl j q
theorem rhs_con (j : S5000x8.Idx) (q : D.contr.Idx) : (D.rhsIdx j q 0).val = (q ⟨0, by decide⟩).val :=
  D.rhsIdx_val_of_single rfl j q
theorem rhs_col (j : S5000x8.Idx) (q : D.contr.Idx) : (D.rhsIdx j q 1).val = (j 1).val := by
  unfold DotDims.rhsIdx
  rw [dif_neg (show ¬(1 : Fin S64x8.rank) ∈ D.rhsBatch by decide), dif_pos (show (1 : Fin S64x8.rank) ∈ D.rhsNonContracting by decide)]
  rfl

/-- One entry of the block product: the sum over the contracted axis of row entry times column entry. -/
theorem block_entry (x0 : FVec Ideal S5000x64 .f32) (x1 : FVec Ideal S64x8 .f32) (j : S5000x8.Idx) :
    k2_pay1 (F := Ideal) x0 x1 j = ∑ k : Fin 64, x0 (lft j k) * x1 (rgt j k) := by
  unfold k2_pay1
  rw [shapeCast_self]
  refine (Ideal.matmul_constant_zero_apply D none _ _ j).trans ?_
  rw [← Equiv.sum_comp (ValueIdx.contrEquiv1 D 64 rfl rfl).symm]
  refine Finset.sum_congr rfl fun k _ => ?_
  have hk := ValueIdx.contrEquiv1_symm_val D 64 rfl rfl k
  have el : D.lhsIdx j ((ValueIdx.contrEquiv1 D 64 rfl rfl).symm k) = lft j k := funext fun a => Fin.ext (by
    match a with
    | ⟨0, _⟩ => exact lhs_row _ _
    | ⟨1, _⟩ => exact (lhs_con _ _).trans hk)
  have er : D.rhsIdx j ((ValueIdx.contrEquiv1 D 64 rfl rfl).symm k) = rgt j k := funext fun a => Fin.ext (by
    match a with
    | ⟨0, _⟩ => exact (rhs_con _ _).trans hk
    | ⟨1, _⟩ => exact rhs_col _ _)
  rw [el, er]
  rfl

theorem origin : (![0, 0] : Fin 2 → Nat) = fun _ => 0 := funext fun a => by fin_cases a <;> rfl

/-- The index maps over the grid: the left block and the result block move together along the rows, the right
    operand stays. -/
theorem maps : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every row block is some point's. -/
theorem onto : ∀ q : Fin 20, ∃ t : Fin cfg2.N, win2_2.index t = ![q.val, 0] :=
  (by decide +kernel : ∀ q : Fin 20, ∃ t : Fin grid2.N, win2_2.index t = ![q.val, 0])

/-- The matrix product of whole arrays, entry by entry. -/
abbrev G (X : S100000x64.Idx → EReal) (W : S64x8.Idx → EReal) : S100000x8.Idx → EReal :=
  fun i => ∑ k : Fin 64, X (Cert.ReferenceIdeal.Read.lidx_main_v49 i k) * W (Cert.ReferenceIdeal.Read.ridx_main_v49 i k)

variable (V : (c : Dev nD) → (b : Ref sig .tc) → Buf (Elt Ideal) ((c : Thread nD τ).loc b))

/-- What point t writes back is block t of the product of the whole arrays. -/
theorem flushed_eq (c : Dev nD) (t : Fin cfg2.N) :
    (dat2 (F := Ideal) V c).flushed 2 t
      = ((cfg2.win 2).blk t).view.read (Elt Ideal) (G (V c main_v43) (V c main_arg4)) := by
  show (cfg2.win 2).cut (grid2.coords t) ((dat2 (F := Ideal) V c).after 2 t) = _
  rw [after2_2]
  unfold out2_2
  rw [View.canon_unit_zero origin]
  simp only [View.ld_unit_zero (S := S5000x64) origin, View.ld_unit_zero (S := S64x8) origin]
  obtain ⟨e0, e1, e2, e3, e4, e5⟩ := maps t
  funext j
  show k2_pay1 (F := Ideal) (iblk2 V c 0 t) (iblk2 V c 1 t) j
    = G (V c main_v43) (V c main_arg4) (((cfg2.win 2).blk t).view.emb j)
  refine (block_entry _ _ j).trans ?_
  refine Finset.sum_congr rfl fun k _ => ?_
  have h0 : ((cfg2.win 0).blk t).view.emb (lft j k)
      = Cert.ReferenceIdeal.Read.lidx_main_v49 (((cfg2.win 2).blk t).view.emb j) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have h1 : ((cfg2.win 1).blk t).view.emb (rgt j k)
      = Cert.ReferenceIdeal.Read.ridx_main_v49 (((cfg2.win 2).blk t).view.emb j) k := by
    funext a; apply Fin.ext
    match a with
    | ⟨0, _⟩ => show win2_1.index t (0 : Fin 2) * 64 + 1 * k.val = k.val; omega
    | ⟨1, _⟩ => show win2_1.index t (1 : Fin 2) * 8 + 1 * (j 1).val = win2_2.index t (1 : Fin 2) * 8 + 1 * (j 1).val; omega
  have e0' : (iblk2 V c 0 t (lft j k) : EReal)
      = (V c main_v43 : S100000x64.Idx → EReal) (Cert.ReferenceIdeal.Read.lidx_main_v49 (((cfg2.win 2).blk t).view.emb j) k) :=
    congrArg (V c main_v43 : S100000x64.Idx → EReal) h0
  have e1' : (iblk2 V c 1 t (rgt j k) : EReal)
      = (V c main_arg4 : S64x8.Idx → EReal) (Cert.ReferenceIdeal.Read.ridx_main_v49 (((cfg2.win 2).blk t).view.emb j) k) :=
    congrArg (V c main_arg4 : S64x8.Idx → EReal) h1
  exact congrArg₂ (fun (a b : EReal) => a * b) e0' e1'

/-- Membership in point t's block, coordinate by coordinate. -/
theorem mem_blk (t : Fin cfg2.N) (i : S100000x8.Idx) :
    i ∈ ((cfg2.win 2).blk t).view.set ↔ ∀ a : Fin 2, win2_2.index t a * S5000x8.size a ≤ (i a).val ∧ (i a).val < win2_2.index t a * S5000x8.size a + S5000x8.size a := by
  show i ∈ ((View.whole main_v44).slice (win2_2.rect t)).set ↔ _
  rw [View.set_slice_whole, Rect.mem_set_unit]
  exact Iff.rfl

/-- The blocks tile the array: row r lies in block r / 5000. -/
theorem cover (i : S100000x8.Idx) : ∃ t : Fin cfg2.N, (cfg2.win 2).flush t = true ∧ i ∈ ((cfg2.win 2).blk t).view.set := by
  have hi0 : (i 0).val < 100000 := (i 0).isLt
  have hi1 : (i 1).val < 8 := (i 1).isLt
  obtain ⟨t, ht⟩ := onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 8 ≤ (i 1).val ∧ (i 1).val < win2_2.index t (1 : Fin 2) * 8 + 8; omega

/-- The result array after the region is the matrix product of the arrays the region found. -/
theorem final (c : Dev nD) :
    (dat2 (F := Ideal) V c).arrAt 2 cfg2.N = G (V c main_v43) (V c main_arg4) :=
  (dat2 (F := Ideal) V c).arrAt_eq_of_cover 2 _ (fun t _ => flushed_eq V c t) cover

end Cert.KernelIdeal.ProjectB

end
-- ==== Proof.CombineB.lean ====
/-
  The second layer's combine step: neighbour sum + self loop + bias, then relu, over the node axis in row blocks.

  Point t of the 20 holds rows 5000·t … 5000·t + 4999 of the aggregated neighbour sums, of the projected
  features and of the squared inverse-root degree (one column), and the whole bias row, and writes the same rows of
  the result. The body is pointwise: entry (r, f) of the block is aggregate(r, f) + feature(r, f) · degree factor(r)
  + bias(f), then the maximum with zero; the degree column is spread over the lanes and the bias row over the rows. Row r of block t is
  row 5000·t + r of each array, so every block is the restriction of ONE function of the whole arrays, and the 20
  blocks tile the rows.
-/
import proofs.«105934_j70050916598067_1_alg».proof.Proof.Gen.KernelIdeal.Frame
import proofs.«105934_j70050916598067_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.CombineB

open Idealize.ShloMosaic Idealize.ShloMosaic.TcCoe Idealize.SL.Sem
open Idealize.ShloMosaic.Pipeline (Dat)
open Cert.KernelIdeal Cert.KernelIdeal.Gen

/-- Where the degree factor of block entry j sits in the [5000, 1] block: (row of j, 0). -/
abbrev bcol (j : S5000x8.Idx) : S5000x1.Idx := fun a => match a with
  | ⟨0, _⟩ => ⟨(j 0).val, (j 0).isLt⟩
  | ⟨1, _⟩ => ⟨0, Nat.one_pos⟩
/-- Where the bias of block entry j sits in the [1, 8] row: (0, column of j). -/
abbrev brow (j : S5000x8.Idx) : S1x8.Idx := fun a => match a with
  | ⟨0, _⟩ => ⟨0, Nat.one_pos⟩
  | ⟨1, _⟩ => ⟨(j 1).val, (j 1).isLt⟩

/-- One entry of the body's result. -/
theorem block_entry (x0 x6 : FVec Ideal S5000x8 .f32) (x2 : FVec Ideal S5000x1 .f32) (x9 : FVec Ideal S1x8 .f32) (j : S5000x8.Idx) :
    k3_pay1 (F := Ideal) x0 x2 x6 x9 j = max ((x6 j + x0 j * x2 (bcol j)) + x9 (brow j)) (FloatOps.ofBits (F := Ideal) .f32 0x00000000#32) := by
  unfold k3_pay1
  simp only [shapeCast_self]
  simp only [ValueIdx.maximumf_apply, ValueIdx.addf_apply, ValueIdx.mulf_apply]
  rw [broadcastTo_apply x2 _ j (bcol j) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl]),
    broadcastTo_apply x9 _ j (brow j) (fun a => match a with
      | ⟨0, _⟩ => by show 0 = if (1 : Nat) = 1 then 0 else (j 0).val; rw [if_pos rfl]
      | ⟨1, _⟩ => by show (j 1).val = if (8 : Nat) = 1 then 0 else (j 1).val; rw [if_neg (by decide)])]
  rfl

theorem origin : (![0, 0] : Fin 2 → Nat) = fun _ => 0 := funext fun a => by fin_cases a <;> rfl

/-- The index maps over the grid: the three row-blocked inputs and the result move together along the rows; the
    bias row stays. -/
theorem maps : ∀ t : Fin cfg3.N, win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 19 :=
  (by decide +kernel : ∀ t : Fin grid3.N, _)

/-- Every row block is some point's. -/
theorem onto : ∀ q : Fin 20, ∃ t : Fin cfg3.N, win3_4.index t = ![q.val, 0] :=
  (by decide +kernel : ∀ q : Fin 20, ∃ t : Fin grid3.N, win3_4.index t = ![q.val, 0])

/-- The layer's combine step on whole arrays, entry by entry. -/
abbrev G (A H : S100000x8.Idx → EReal) (Dc : S100000x1.Idx → EReal) (Br : S1x8.Idx → EReal) : S100000x8.Idx → EReal :=
  fun i => max ((A i + H i * Dc (Cert.ReferenceIdeal.Read.idx_main_v80 i)) + Br (Cert.ReferenceIdeal.Read.idx_main_v84 i)) (FloatOps.ofBits (F := Ideal) .f32 0x00000000#32)

variable (V : (c : Dev nD) → (b : Ref sig .tc) → Buf (Elt Ideal) ((c : Thread nD τ).loc b))

/-- What point t writes back is block t of the combine step of the whole arrays. -/
theorem flushed_eq (c : Dev nD) (t : Fin cfg3.N) :
    (dat3 (F := Ideal) V c).flushed 4 t
      = ((cfg3.win 4).blk t).view.read (Elt Ideal) (G (V c main_v72) (V c main_v44) (V c main_v73) (V c main_v74)) := by
  show (cfg3.win 4).cut (grid3.coords t) ((dat3 (F := Ideal) V c).after 4 t) = _
  rw [after3_4]
  unfold out3_4
  rw [View.canon_unit_zero origin]
  simp only [View.ld_unit_zero (S := S5000x8) origin, View.ld_unit_zero (S := S5000x1) origin, View.ld_unit_zero (S := S1x8) origin]
  obtain ⟨e0, e1, e2, e3, e4, e5, e6, e7, e8, e9⟩ := maps t
  funext j
  show k3_pay1 (F := Ideal) (iblk3 V c 1 t) (iblk3 V c 2 t) (iblk3 V c 0 t) (iblk3 V c 3 t) j
    = G (V c main_v72) (V c main_v44) (V c main_v73) (V c main_v74) (((cfg3.win 4).blk t).view.emb j)
  refine (block_entry _ _ _ _ j).trans ?_
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 8 + 1 * (j 1).val = win3_4.index t (1 : Fin 2) * 8 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 8 + 1 * (j 1).val = win3_4.index t (1 : Fin 2) * 8 + 1 * (j 1).val; omega
  have h2 : ((cfg3.win 2).blk t).view.emb (bcol j)
      = Cert.ReferenceIdeal.Read.idx_main_v80 (((cfg3.win 4).blk t).view.emb j) := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : ((cfg3.win 3).blk t).view.emb (brow j)
      = Cert.ReferenceIdeal.Read.idx_main_v84 (((cfg3.win 4).blk t).view.emb j) := by
    funext a; apply Fin.ext
    match a with
    | ⟨0, _⟩ => show win3_3.index t (0 : Fin 2) * 1 + 1 * 0 = 0; omega
    | ⟨1, _⟩ => show win3_3.index t (1 : Fin 2) * 8 + 1 * (j 1).val = win3_4.index t (1 : Fin 2) * 8 + 1 * (j 1).val; omega
  have eA : (iblk3 V c 0 t j : EReal) = (V c main_v72 : S100000x8.Idx → EReal) (((cfg3.win 4).blk t).view.emb j) :=
    congrArg (V c main_v72 : S100000x8.Idx → EReal) h0
  have eH : (iblk3 V c 1 t j : EReal) = (V c main_v44 : S100000x8.Idx → EReal) (((cfg3.win 4).blk t).view.emb j) :=
    congrArg (V c main_v44 : S100000x8.Idx → EReal) h1
  have eD : (iblk3 V c 2 t (bcol j) : EReal)
      = (V c main_v73 : S100000x1.Idx → EReal) (Cert.ReferenceIdeal.Read.idx_main_v80 (((cfg3.win 4).blk t).view.emb j)) :=
    congrArg (V c main_v73 : S100000x1.Idx → EReal) h2
  have eB : (iblk3 V c 3 t (brow j) : EReal)
      = (V c main_v74 : S1x8.Idx → EReal) (Cert.ReferenceIdeal.Read.idx_main_v84 (((cfg3.win 4).blk t).view.emb j)) :=
    congrArg (V c main_v74 : S1x8.Idx → EReal) h3
  rw [eA, eH, eD, eB]

/-- Membership in point t's block, coordinate by coordinate. -/
theorem mem_blk (t : Fin cfg3.N) (i : S100000x8.Idx) :
    i ∈ ((cfg3.win 4).blk t).view.set ↔ ∀ a : Fin 2, win3_4.index t a * S5000x8.size a ≤ (i a).val ∧ (i a).val < win3_4.index t a * S5000x8.size a + S5000x8.size a := by
  show i ∈ ((View.whole main_v75).slice (win3_4.rect t)).set ↔ _
  rw [View.set_slice_whole, Rect.mem_set_unit]
  exact Iff.rfl

/-- The blocks tile the array: row r lies in block r / 5000. -/
theorem cover (i : S100000x8.Idx) : ∃ t : Fin cfg3.N, (cfg3.win 4).flush t = true ∧ i ∈ ((cfg3.win 4).blk t).view.set := by
  have hi0 : (i 0).val < 100000 := (i 0).isLt
  have hi1 : (i 1).val < 8 := (i 1).isLt
  obtain ⟨t, ht⟩ := onto ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 8 ≤ (i 1).val ∧ (i 1).val < win3_4.index t (1 : Fin 2) * 8 + 8; omega

/-- The result array after the region is the combine step of the arrays the region found. -/
theorem final (c : Dev nD) :
    (dat3 (F := Ideal) V c).arrAt 4 cfg3.N = G (V c main_v72) (V c main_v44) (V c main_v73) (V c main_v74) :=
  (dat3 (F := Ideal) V c).arrAt_eq_of_cover 4 _ (fun t _ => flushed_eq V c t) cover

end Cert.KernelIdeal.CombineB

end
-- ==== Proof.ProjectA.lean ====
/-
  The first projection, h = x · W₁, over the node axis in row blocks.

  The array has 100000 rows and the grid 20 points; point t holds rows 5000·t … 5000·t + 4999 of x (one column)
  and the whole of W₁ (one row, 64 columns), and writes rows 5000·t … of the result. On the extended reals the
  block product into a zero accumulator is, entry by entry, the plain sum over the contracted axis (here of one
  term) of row entry times column entry; a change of float format is the identity. Row r of block t is row
  5000·t + r of the array, so every block is the restriction of ONE function of the whole arrays, and that
  function is the matrix product x · W₁ as the reference's dot_general reads it at an index. The 20 blocks tile
  the rows, so the result array ends as that product.
-/
import proofs.«105934_j70050916598067_1_alg».proof.Proof.Gen.KernelIdeal.Frame
import proofs.«105934_j70050916598067_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.ProjectA

open Idealize.ShloMosaic Idealize.ShloMosaic.TcCoe Idealize.SL.Sem
open Idealize.ShloMosaic.Pipeline (Dat)
open Cert.KernelIdeal Cert.KernelIdeal.Gen

/-- The block product's dimension record: rows of a [5000,1] block against columns of a [1,64] block. -/
abbrev D : DotDims S5000x1 S1x64 S5000x64 := dot_S5000x1_S1x64_S5000x64_1_0_0_1_n_n

/-- The left factor of entry j's k-th term sits at (row of j, k). -/
abbrev lft (j : S5000x64.Idx) (k : Fin 1) : S5000x1.Idx := fun a => match a with
  | ⟨0, _⟩ => ⟨(j 0).val, (j 0).isLt⟩
  | ⟨1, _⟩ => ⟨k.val, k.isLt⟩
/-- The right factor sits at (k, column of j). -/
abbrev rgt (j : S5000x64.Idx) (k : Fin 1) : S1x64.Idx := fun a => match a with
  | ⟨0, _⟩ => ⟨k.val, k.isLt⟩
  | ⟨1, _⟩ => ⟨(j 1).val, (j 1).isLt⟩

theorem lhs_row (j : S5000x64.Idx) (q : D.contr.Idx) : (D.lhsIdx j q 0).val = (j 0).val := by
  unfold DotDims.lhsIdx
  rw [dif_neg (show ¬(0 : Fin S5000x1.rank) ∈ D.lhsBatch by decide), dif_pos (show (0 : Fin S5000x1.rank) ∈ D.lhsNonContracting by decide)]
  rfl
theorem lhs_con (j : S5000x64.Idx) (q : D.contr.Idx) : (D.lhsIdx j q 1).val = (q ⟨0, by decide⟩).val :=
  D.lhsIdx_val_of_single rfl j q
theorem rhs_con (j : S5000x64.Idx) (q : D.contr.Idx) : (D.rhsIdx j q 0).val = (q ⟨0, by decide⟩).val :=
  D.rhsIdx_val_of_single rfl j q
theorem rhs_col (j : S5000x64.Idx) (q : D.contr.Idx) : (D.rhsIdx j q 1).val = (j 1).val := by
  unfold DotDims.rhsIdx
  rw [dif_neg (show ¬(1 : Fin S1x64.rank) ∈ D.rhsBatch by decide), dif_pos (show (1 : Fin S1x64.rank) ∈ D.rhsNonContracting by decide)]
  rfl

/-- One entry of the block product: the sum over the contracted axis of row entry times column entry. -/
theorem block_entry (x0 : FVec Ideal S5000x1 .f32) (x1 : FVec Ideal S1x64 .f32) (j : S5000x64.Idx) :
    k0_pay1 (F := Ideal) x0 x1 j = ∑ k : Fin 1, x0 (lft j k) * x1 (rgt j k) := by
  unfold k0_pay1
  refine (Ideal.matmul_constant_zero_apply D none _ _ j).trans ?_
  rw [← Equiv.sum_comp (ValueIdx.contrEquiv1 D 1 rfl rfl).symm]
  refine Finset.sum_congr rfl fun k _ => ?_
  have hk := ValueIdx.contrEquiv1_symm_val D 1 rfl rfl k
  have el : D.lhsIdx j ((ValueIdx.contrEquiv1 D 1 rfl rfl).symm k) = lft j k := funext fun a => Fin.ext (by
    match a with
    | ⟨0, _⟩ => exact lhs_row _ _
    | ⟨1, _⟩ => exact (lhs_con _ _).trans hk)
  have er : D.rhsIdx j ((ValueIdx.contrEquiv1 D 1 rfl rfl).symm k) = rgt j k := funext fun a => Fin.ext (by
    match a with
    | ⟨0, _⟩ => exact (rhs_con _ _).trans hk
    | ⟨1, _⟩ => exact rhs_col _ _)
  rw [el, er]
  rfl

theorem origin : (![0, 0] : Fin 2 → Nat) = fun _ => 0 := funext fun a => by fin_cases a <;> rfl

/-- The index maps over the grid: the x block and the result block move together along the rows, W₁ stays. -/
theorem maps : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block is some point's. -/
theorem onto : ∀ q : Fin 20, ∃ t : Fin cfg0.N, win0_2.index t = ![q.val, 0] :=
  (by decide +kernel : ∀ q : Fin 20, ∃ t : Fin grid0.N, win0_2.index t = ![q.val, 0])

variable (V : (c : Dev nD) → (b : Ref sig .tc) → Buf (Elt Ideal) ((c : Thread nD τ).loc b))

/-- What point t writes back is block t of the product of the whole arrays. -/
theorem flushed_eq (c : Dev nD) (t : Fin cfg0.N) :
    (dat0 (F := Ideal) V c).flushed 2 t
      = ((cfg0.win 2).blk t).view.read (Elt Ideal)
          (Cert.ReferenceIdeal.Read.val_main_v11 (F := Ideal) (V c main_arg0) (V c main_arg2)) := by
  show (cfg0.win 2).cut (grid0.coords t) ((dat0 (F := Ideal) V c).after 2 t) = _
  rw [after0_2]
  unfold out0_2
  rw [View.canon_unit_zero origin]
  simp only [View.ld_unit_zero (S := S5000x1) origin, View.ld_unit_zero (S := S1x64) origin]
  obtain ⟨e0, e1, e2, e3, e4, e5⟩ := maps t
  funext j
  show k0_pay1 (F := Ideal) (iblk0 V c 0 t) (iblk0 V c 1 t) j
    = Cert.ReferenceIdeal.Read.val_main_v11 (F := Ideal) (V c main_arg0) (V c main_arg2) (((cfg0.win 2).blk t).view.emb j)
  refine (block_entry _ _ j).trans ?_
  refine Eq.trans ?_ (Cert.ReferenceIdeal.Read.val_main_v11_apply _ _ _).symm
  refine Finset.sum_congr rfl fun k _ => ?_
  have h0 : ((cfg0.win 0).blk t).view.emb (lft j k)
      = Cert.ReferenceIdeal.Read.lidx_main_v11 (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 1 + 1 * k.val = k.val; omega
  have h1 : ((cfg0.win 1).blk t).view.emb (rgt j k)
      = Cert.ReferenceIdeal.Read.ridx_main_v11 (((cfg0.win 2).blk t).view.emb j) k := by
    funext a; apply Fin.ext
    match a with
    | ⟨0, _⟩ => show win0_1.index t (0 : Fin 2) * 1 + 1 * k.val = k.val; omega
    | ⟨1, _⟩ => show win0_1.index t (1 : Fin 2) * 64 + 1 * (j 1).val = win0_2.index t (1 : Fin 2) * 64 + 1 * (j 1).val; omega
  have e0 : (iblk0 V c 0 t (lft j k) : EReal)
      = (V c main_arg0 : S100000x1.Idx → EReal) (Cert.ReferenceIdeal.Read.lidx_main_v11 (((cfg0.win 2).blk t).view.emb j) k) :=
    congrArg (V c main_arg0 : S100000x1.Idx → EReal) h0
  have e1 : (iblk0 V c 1 t (rgt j k) : EReal)
      = (V c main_arg2 : S1x64.Idx → EReal) (Cert.ReferenceIdeal.Read.ridx_main_v11 (((cfg0.win 2).blk t).view.emb j) k) :=
    congrArg (V c main_arg2 : S1x64.Idx → EReal) h1
  exact congrArg₂ (fun (a b : EReal) => a * b) e0 e1

/-- Membership in point t's block, coordinate by coordinate. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v12).slice (win0_2.rect t)).set ↔ _
  rw [View.set_slice_whole, Rect.mem_set_unit]
  exact Iff.rfl

/-- The blocks tile the array: row r lies in block r / 5000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region is x · W₁ of the arrays the region found. -/
theorem final (c : Dev nD) :
    (dat0 (F := Ideal) V c).arrAt 2 cfg0.N
      = Cert.ReferenceIdeal.Read.val_main_v11 (F := Ideal) (V c main_arg0) (V c main_arg2) :=
  (dat0 (F := Ideal) V c).arrAt_eq_of_cover 2 _ (fun t _ => flushed_eq V c t) cover

end Cert.KernelIdeal.ProjectA

end
-- ==== Proof.CombineA.lean ====
/-
  The first layer's combine step: neighbour sum + self loop + bias, then relu, over the node axis in row blocks.

  Point t of the 20 holds rows 5000·t … 5000·t + 4999 of the aggregated neighbour sums, of the projected
  features and of the squared inverse-root degree (one column), and the whole bias row, and writes the same rows of
  the result. The body is pointwise: entry (r, f) of the block is aggregate(r, f) + feature(r, f) · degree factor(r)
  + bias(f), then the maximum with zero; the degree column is spread over the lanes and the bias row over the rows. Row r of block t is
  row 5000·t + r of each array, so every block is the restriction of ONE function of the whole arrays, and the 20
  blocks tile the rows.
-/
import proofs.«105934_j70050916598067_1_alg».proof.Proof.Gen.KernelIdeal.Frame
import proofs.«105934_j70050916598067_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.CombineA

open Idealize.ShloMosaic Idealize.ShloMosaic.TcCoe Idealize.SL.Sem
open Idealize.ShloMosaic.Pipeline (Dat)
open Cert.KernelIdeal Cert.KernelIdeal.Gen

/-- Where the degree factor of block entry j sits in the [5000, 1] block: (row of j, 0). -/
abbrev bcol (j : S5000x64.Idx) : S5000x1.Idx := fun a => match a with
  | ⟨0, _⟩ => ⟨(j 0).val, (j 0).isLt⟩
  | ⟨1, _⟩ => ⟨0, Nat.one_pos⟩
/-- Where the bias of block entry j sits in the [1, 64] row: (0, column of j). -/
abbrev brow (j : S5000x64.Idx) : S1x64.Idx := fun a => match a with
  | ⟨0, _⟩ => ⟨0, Nat.one_pos⟩
  | ⟨1, _⟩ => ⟨(j 1).val, (j 1).isLt⟩

/-- One entry of the body's result. -/
theorem block_entry (x0 x6 : FVec Ideal S5000x64 .f32) (x2 : FVec Ideal S5000x1 .f32) (x9 : FVec Ideal S1x64 .f32) (j : S5000x64.Idx) :
    k1_pay1 (F := Ideal) x0 x2 x6 x9 j = max ((x6 j + x0 j * x2 (bcol j)) + x9 (brow j)) (FloatOps.ofBits (F := Ideal) .f32 0x00000000#32) := by
  unfold k1_pay1
  simp only [shapeCast_self]
  simp only [ValueIdx.maximumf_apply, ValueIdx.addf_apply, ValueIdx.mulf_apply]
  rw [broadcastTo_apply x2 _ j (bcol j) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl]),
    broadcastTo_apply x9 _ j (brow j) (fun a => match a with
      | ⟨0, _⟩ => by show 0 = if (1 : Nat) = 1 then 0 else (j 0).val; rw [if_pos rfl]
      | ⟨1, _⟩ => by show (j 1).val = if (64 : Nat) = 1 then 0 else (j 1).val; rw [if_neg (by decide)])]
  rfl

theorem origin : (![0, 0] : Fin 2 → Nat) = fun _ => 0 := funext fun a => by fin_cases a <;> rfl

/-- The index maps over the grid: the three row-blocked inputs and the result move together along the rows; the
    bias row stays. -/
theorem maps : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = win1_4.index t (0 : Fin 2)
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 19 :=
  (by decide +kernel : ∀ t : Fin grid1.N, _)

/-- Every row block is some point's. -/
theorem onto : ∀ q : Fin 20, ∃ t : Fin cfg1.N, win1_4.index t = ![q.val, 0] :=
  (by decide +kernel : ∀ q : Fin 20, ∃ t : Fin grid1.N, win1_4.index t = ![q.val, 0])

/-- The layer's combine step on whole arrays, entry by entry. -/
abbrev G (A H : S100000x64.Idx → EReal) (Dc : S100000x1.Idx → EReal) (Br : S1x64.Idx → EReal) : S100000x64.Idx → EReal :=
  fun i => max ((A i + H i * Dc (Cert.ReferenceIdeal.Read.idx_main_v42 i)) + Br (Cert.ReferenceIdeal.Read.idx_main_v46 i)) (FloatOps.ofBits (F := Ideal) .f32 0x00000000#32)

variable (V : (c : Dev nD) → (b : Ref sig .tc) → Buf (Elt Ideal) ((c : Thread nD τ).loc b))

/-- What point t writes back is block t of the combine step of the whole arrays. -/
theorem flushed_eq (c : Dev nD) (t : Fin cfg1.N) :
    (dat1 (F := Ideal) V c).flushed 4 t
      = ((cfg1.win 4).blk t).view.read (Elt Ideal) (G (V c main_v40) (V c main_v12) (V c main_v41) (V c main_v42)) := by
  show (cfg1.win 4).cut (grid1.coords t) ((dat1 (F := Ideal) V c).after 4 t) = _
  rw [after1_4]
  unfold out1_4
  rw [View.canon_unit_zero origin]
  simp only [View.ld_unit_zero (S := S5000x64) origin, View.ld_unit_zero (S := S5000x1) origin, View.ld_unit_zero (S := S1x64) origin]
  obtain ⟨e0, e1, e2, e3, e4, e5, e6, e7, e8, e9⟩ := maps t
  funext j
  show k1_pay1 (F := Ideal) (iblk1 V c 1 t) (iblk1 V c 2 t) (iblk1 V c 0 t) (iblk1 V c 3 t) j
    = G (V c main_v40) (V c main_v12) (V c main_v41) (V c main_v42) (((cfg1.win 4).blk t).view.emb j)
  refine (block_entry _ _ _ _ j).trans ?_
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * (j 1).val = win1_4.index t (1 : Fin 2) * 64 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 64 + 1 * (j 1).val = win1_4.index t (1 : Fin 2) * 64 + 1 * (j 1).val; omega
  have h2 : ((cfg1.win 2).blk t).view.emb (bcol j)
      = Cert.ReferenceIdeal.Read.idx_main_v42 (((cfg1.win 4).blk t).view.emb j) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (brow j)
      = Cert.ReferenceIdeal.Read.idx_main_v46 (((cfg1.win 4).blk t).view.emb j) := by
    funext a; apply Fin.ext
    match a with
    | ⟨0, _⟩ => show win1_3.index t (0 : Fin 2) * 1 + 1 * 0 = 0; omega
    | ⟨1, _⟩ => show win1_3.index t (1 : Fin 2) * 64 + 1 * (j 1).val = win1_4.index t (1 : Fin 2) * 64 + 1 * (j 1).val; omega
  have eA : (iblk1 V c 0 t j : EReal) = (V c main_v40 : S100000x64.Idx → EReal) (((cfg1.win 4).blk t).view.emb j) :=
    congrArg (V c main_v40 : S100000x64.Idx → EReal) h0
  have eH : (iblk1 V c 1 t j : EReal) = (V c main_v12 : S100000x64.Idx → EReal) (((cfg1.win 4).blk t).view.emb j) :=
    congrArg (V c main_v12 : S100000x64.Idx → EReal) h1
  have eD : (iblk1 V c 2 t (bcol j) : EReal)
      = (V c main_v41 : S100000x1.Idx → EReal) (Cert.ReferenceIdeal.Read.idx_main_v42 (((cfg1.win 4).blk t).view.emb j)) :=
    congrArg (V c main_v41 : S100000x1.Idx → EReal) h2
  have eB : (iblk1 V c 3 t (brow j) : EReal)
      = (V c main_v42 : S1x64.Idx → EReal) (Cert.ReferenceIdeal.Read.idx_main_v46 (((cfg1.win 4).blk t).view.emb j)) :=
    congrArg (V c main_v42 : S1x64.Idx → EReal) h3
  rw [eA, eH, eD, eB]

/-- Membership in point t's block, coordinate by coordinate. -/
theorem mem_blk (t : Fin cfg1.N) (i : S100000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

/-- The blocks tile the array: row r lies in block r / 5000. -/
theorem cover (i : S100000x64.Idx) : ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The result array after the region is the combine step of the arrays the region found. -/
theorem final (c : Dev nD) :
    (dat1 (F := Ideal) V c).arrAt 4 cfg1.N = G (V c main_v40) (V c main_v12) (V c main_v41) (V c main_v42) :=
  (dat1 (F := Ideal) V c).arrAt_eq_of_cover 4 _ (fun t _ => flushed_eq V c t) cover

end Cert.KernelIdeal.CombineA

end
-- ==== Proof.LayerA.lean ====
/-
  The first layer, read through the program's boundaries.

  Before the first region the host computes, from the edge list alone, the source and destination node of every
  edge, the inverse square root of each node's degree (counting a self loop) and its square. The first region
  leaves x · W₁. The host then gathers that product at every edge's source, scales it by the two end nodes' degree
  factors and adds it into the destination's row; the second region adds the self-loop term and the bias and takes
  the maximum with zero. Each of these values is the reference's value of the same name: the host stretches are
  the same operations applied to equal operands, and a region's result is the closed form of its module. A buffer
  that a stretch or a region does not write keeps its contents across it.
-/
import proofs.«105934_j70050916598067_1_alg».proof.Proof.Gen.KernelIdeal.Frame
import proofs.«105934_j70050916598067_1_alg».proof.Proof.Gen.ReferenceIdeal.Read
import proofs.«105934_j70050916598067_1_alg».proof.Proof.ProjectA
import proofs.«105934_j70050916598067_1_alg».proof.Proof.CombineA
import proofs.«105934_j70050916598067_1_alg».proof.Proof.Recast
import Idealize.ShloMosaic.Lib.StableHlo.Run
import Idealize.ShloMosaic.Lib.Pipeline.Value
import Idealize.ShloMosaic.Lib.ValueIdx

set_option maxRecDepth 16384

noncomputable section

namespace Cert.KernelIdeal.LayerA

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v10 val_main_v40 val_main_v78 val_main_v115 val_main_v11 val_main_v39 val_main_v48 val_main_v49
  val_main_v77 val_main_v86 val_main_v87 val_main_v114 val_main_v121)

variable (m : (ℓ : Loc nD τ sig) → Buf (Elt Ideal) ℓ) (ρ : Dev nD → PrngReg) (c : Dev nD)

/-! ## Before the first region: what the host computes from the edge list, and the arguments -/

theorem src1 : W1 (F := Ideal) m ρ c (Proc.devRef .tc main_v1) = val_main_v1 (F := Ideal) (m ((c : Thread nD τ).loc main_arg1)) := by
  show StableHlo.after hostOps0 (W0 m ρ c) (Proc.devRef .tc main_v1) = _
  after_results_simp <;> rfl

theorem dst1 : W1 (F := Ideal) m ρ c (Proc.devRef .tc main_v3) = val_main_v3 (F := Ideal) (m ((c : Thread nD τ).loc main_arg1)) := by
  show StableHlo.after hostOps0 (W0 m ρ c) (Proc.devRef .tc main_v3) = _
  after_results_simp <;> rfl

theorem dinv1 : W1 (F := Ideal) m ρ c (Proc.devRef .tc main_v10) = val_main_v10 (F := Ideal) (m ((c : Thread nD τ).loc main_arg1)) := by
  show StableHlo.after hostOps0 (W0 m ρ c) (Proc.devRef .tc main_v10) = _
  after_results_simp <;> rfl

theorem dsq1 : W1 (F := Ideal) m ρ c (Proc.devRef .tc main_v11) = val_main_v40 (F := Ideal) (m ((c : Thread nD τ).loc main_arg1)) := by
  show StableHlo.after hostOps0 (W0 m ρ c) (Proc.devRef .tc main_v11) = _
  after_results_simp <;> rfl

theorem arg0_1 : W1 (F := Ideal) m ρ c (Proc.devRef .tc main_arg0) = (m ((c : Thread nD τ).loc main_arg0)) := by
  show StableHlo.after hostOps0 (W0 m ρ c) (Proc.devRef .tc main_arg0) = _
  after_results_simp <;> rfl

theorem arg2_1 : W1 (F := Ideal) m ρ c (Proc.devRef .tc main_arg2) = (m ((c : Thread nD τ).loc main_arg2)) := by
  show StableHlo.after hostOps0 (W0 m ρ c) (Proc.devRef .tc main_arg2) = _
  after_results_simp <;> rfl

theorem arg3_1 : W1 (F := Ideal) m ρ c (Proc.devRef .tc main_arg3) = (m ((c : Thread nD τ).loc main_arg3)) := by
  show StableHlo.after hostOps0 (W0 m ρ c) (Proc.devRef .tc main_arg3) = _
  after_results_simp <;> rfl

theorem arg4_1 : W1 (F := Ideal) m ρ c (Proc.devRef .tc main_arg4) = (m ((c : Thread nD τ).loc main_arg4)) := by
  show StableHlo.after hostOps0 (W0 m ρ c) (Proc.devRef .tc main_arg4) = _
  after_results_simp <;> rfl

theorem arg5_1 : W1 (F := Ideal) m ρ c (Proc.devRef .tc main_arg5) = (m ((c : Thread nD τ).loc main_arg5)) := by
  show StableHlo.after hostOps0 (W0 m ρ c) (Proc.devRef .tc main_arg5) = _
  after_results_simp <;> rfl

theorem arg6_1 : W1 (F := Ideal) m ρ c (Proc.devRef .tc main_arg6) = (m ((c : Thread nD τ).loc main_arg6)) := by
  show StableHlo.after hostOps0 (W0 m ρ c) (Proc.devRef .tc main_arg6) = _
  after_results_simp <;> rfl

theorem arg7_1 : W1 (F := Ideal) m ρ c (Proc.devRef .tc main_arg7) = (m ((c : Thread nD τ).loc main_arg7)) := by
  show StableHlo.after hostOps0 (W0 m ρ c) (Proc.devRef .tc main_arg7) = _
  after_results_simp <;> rfl

/-! ## Across the first region -/

theorem src2 : W2 (F := Ideal) m ρ c (Proc.devRef .tc main_v1) = val_main_v1 (F := Ideal) (m ((c : Thread nD τ).loc main_arg1)) :=
  (W2_of_ne m ρ c main_v1 (by decide)).trans (src1 m ρ c)
theorem dst2 : W2 (F := Ideal) m ρ c (Proc.devRef .tc main_v3) = val_main_v3 (F := Ideal) (m ((c : Thread nD τ).loc main_arg1)) :=
  (W2_of_ne m ρ c main_v3 (by decide)).trans (dst1 m ρ c)
theorem dinv2 : W2 (F := Ideal) m ρ c (Proc.devRef .tc main_v10) = val_main_v10 (F := Ideal) (m ((c : Thread nD τ).loc main_arg1)) :=
  (W2_of_ne m ρ c main_v10 (by decide)).trans (dinv1 m ρ c)
theorem dsq2 : W2 (F := Ideal) m ρ c (Proc.devRef .tc main_v11) = val_main_v40 (F := Ideal) (m ((c : Thread nD τ).loc main_arg1)) :=
  (W2_of_ne m ρ c main_v11 (by decide)).trans (dsq1 m ρ c)
theorem arg3_2 : W2 (F := Ideal) m ρ c (Proc.devRef .tc main_arg3) = (m ((c : Thread nD τ).loc main_arg3)) :=
  (W2_of_ne m ρ c main_arg3 (by decide)).trans (arg3_1 m ρ c)
theorem arg4_2 : W2 (F := Ideal) m ρ c (Proc.devRef .tc main_arg4) = (m ((c : Thread nD τ).loc main_arg4)) :=
  (W2_of_ne m ρ c main_arg4 (by decide)).trans (arg4_1 m ρ c)
theorem arg5_2 : W2 (F := Ideal) m ρ c (Proc.devRef .tc main_arg5) = (m ((c : Thread nD τ).loc main_arg5)) :=
  (W2_of_ne m ρ c main_arg5 (by decide)).trans (arg5_1 m ρ c)
theorem arg6_2 : W2 (F := Ideal) m ρ c (Proc.devRef .tc main_arg6) = (m ((c : Thread nD τ).loc main_arg6)) :=
  (W2_of_ne m ρ c main_arg6 (by decide)).trans (arg6_1 m ρ c)
theorem arg7_2 : W2 (F := Ideal) m ρ c (Proc.devRef .tc main_arg7) = (m ((c : Thread nD τ).loc main_arg7)) :=
  (W2_of_ne m ρ c main_arg7 (by decide)).trans (arg7_1 m ρ c)

/-- The first region leaves x · W₁. -/
theorem proj2 : W2 (F := Ideal) m ρ c (Proc.devRef .tc main_v12) = val_main_v11 (F := Ideal) (m ((c : Thread nD τ).loc main_arg0)) (m ((c : Thread nD τ).loc main_arg2)) :=
  (W2_arr m ρ c 2).trans ((ProjectA.final (V1 m ρ) c).trans
    (congrArg₂ (val_main_v11 (F := Ideal)) (arg0_1 m ρ c) (arg2_1 m ρ c)))

/-! ## The host stretch before the second region -/

theorem agg3 : W3 (F := Ideal) m ρ c (Proc.devRef .tc main_v40) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v40) = _
  after_results_simp
  rw [src2 m ρ c, dst2 m ρ c, dinv2 m ρ c, proj2 m ρ c] <;> rfl

theorem col3 : W3 (F := Ideal) m ρ c (Proc.devRef .tc main_v41) = shapeCast S100000x1 (val_main_v40 (F := Ideal) (m ((c : Thread nD τ).loc main_arg1))) shapeCasts_S100000_S100000x1 := by
  show StableHlo.after hostOps1 (W2 m ρ c) (Proc.devRef .tc main_v41) = _
  after_results_simp
  rw [dsq2 m ρ c] <;> rfl

theorem row3 : W3 (F := Ideal) m ρ c (Proc.devRef .tc main_v42) = shapeCast S1x64 (m ((c : Thread nD τ).loc main_arg3)) shapeCasts_S64_S1x64 := by
  show StableHlo.after hostOps1 (W2 m ρ c) (Proc.devRef .tc main_v42) = _
  after_results_simp
  rw [arg3_2 m ρ c] <;> rfl

theorem keep3_v1 : W3 (F := Ideal) m ρ c (Proc.devRef .tc main_v1) = W2 (F := Ideal) m ρ c (Proc.devRef .tc main_v1) := by
  show StableHlo.after hostOps1 (W2 m ρ c) (Proc.devRef .tc main_v1) = _
  after_results_simp

theorem keep3_v3 : W3 (F := Ideal) m ρ c (Proc.devRef .tc main_v3) = W2 (F := Ideal) m ρ c (Proc.devRef .tc main_v3) := by
  show StableHlo.after hostOps1 (W2 m ρ c) (Proc.devRef .tc main_v3) = _
  after_results_simp

theorem keep3_v10 : W3 (F := Ideal) m ρ c (Proc.devRef .tc main_v10) = W2 (F := Ideal) m ρ c (Proc.devRef .tc main_v10) := by
  show StableHlo.after hostOps1 (W2 m ρ c) (Proc.devRef .tc main_v10) = _
  after_results_simp

theorem keep3_v11 : W3 (F := Ideal) m ρ c (Proc.devRef .tc main_v11) = W2 (F := Ideal) m ρ c (Proc.devRef .tc main_v11) := by
  show StableHlo.after hostOps1 (W2 m ρ c) (Proc.devRef .tc main_v11) = _
  after_results_simp

theorem keep3_v12 : W3 (F := Ideal) m ρ c (Proc.devRef .tc main_v12) = W2 (F := Ideal) m ρ c (Proc.devRef .tc main_v12) := by
  show StableHlo.after hostOps1 (W2 m ρ c) (Proc.devRef .tc main_v12) = _
  after_results_simp

theorem keep3_arg4 : W3 (F := Ideal) m ρ c (Proc.devRef .tc main_arg4) = W2 (F := Ideal) m ρ c (Proc.devRef .tc main_arg4) := by
  show StableHlo.after hostOps1 (W2 m ρ c) (Proc.devRef .tc main_arg4) = _
  after_results_simp

theorem keep3_arg5 : W3 (F := Ideal) m ρ c (Proc.devRef .tc main_arg5) = W2 (F := Ideal) m ρ c (Proc.devRef .tc main_arg5) := by
  show StableHlo.after hostOps1 (W2 m ρ c) (Proc.devRef .tc main_arg5) = _
  after_results_simp

theorem keep3_arg6 : W3 (F := Ideal) m ρ c (Proc.devRef .tc main_arg6) = W2 (F := Ideal) m ρ c (Proc.devRef .tc main_arg6) := by
  show StableHlo.after hostOps1 (W2 m ρ c) (Proc.devRef .tc main_arg6) = _
  after_results_simp

theorem keep3_arg7 : W3 (F := Ideal) m ρ c (Proc.devRef .tc main_arg7) = W2 (F := Ideal) m ρ c (Proc.devRef .tc main_arg7) := by
  show StableHlo.after hostOps1 (W2 m ρ c) (Proc.devRef .tc main_arg7) = _
  after_results_simp

theorem proj3 : W3 (F := Ideal) m ρ c (Proc.devRef .tc main_v12) = val_main_v11 (F := Ideal) (m ((c : Thread nD τ).loc main_arg0)) (m ((c : Thread nD τ).loc main_arg2)) :=
  (keep3_v12 m ρ c).trans (proj2 m ρ c)

/-! ## The second region: the layer's combine step is the reference's -/

/-- Entry by entry the combine step of the reference's operands is the reference's activation. -/
theorem combine_eq (x0 : (⟨Cert.ReferenceIdeal.S100000x1, .f32⟩ : BufTy).Contents (Elt Ideal)) (x1 : (⟨Cert.ReferenceIdeal.S2x3200000, .i32⟩ : BufTy).Contents (Elt Ideal))
    (x2 : (⟨Cert.ReferenceIdeal.S1x64, .f32⟩ : BufTy).Contents (Elt Ideal)) (x3 : (⟨Cert.ReferenceIdeal.S64, .f32⟩ : BufTy).Contents (Elt Ideal)) :
    CombineA.G (val_main_v39 (F := Ideal) x0 x1 x2) (val_main_v11 (F := Ideal) x0 x2)
        (shapeCast S100000x1 (val_main_v40 (F := Ideal) x1) shapeCasts_S100000_S100000x1) (shapeCast S1x64 x3 shapeCasts_S64_S1x64)
      = val_main_v48 (F := Ideal) x0 x1 x2 x3 := by
  funext i
  rw [Cert.ReferenceIdeal.Read.val_main_v48_apply, Cert.ReferenceIdeal.Read.val_main_v47_apply, Cert.ReferenceIdeal.Read.val_main_v44_apply, Cert.ReferenceIdeal.Read.val_main_v43_apply,
    Cert.ReferenceIdeal.Read.val_main_v42_apply, Cert.ReferenceIdeal.Read.val_main_v41_apply, Cert.ReferenceIdeal.Read.val_main_v46_apply, Cert.ReferenceIdeal.Read.val_main_v45_apply,
    Cert.ReferenceIdeal.Read.val_main_call0_v0_apply, Cert.ReferenceIdeal.Read.val_main_call0_cst_apply]
  unfold CombineA.G
  rw [Recast.column (val_main_v40 (F := Ideal) x1) _ (Cert.ReferenceIdeal.Read.idx_main_v42 i) (Cert.ReferenceIdeal.Read.idx_main_v41 (Cert.ReferenceIdeal.Read.idx_main_v42 i)) rfl,
    Recast.row64 x3 _ (Cert.ReferenceIdeal.Read.idx_main_v46 i) (Cert.ReferenceIdeal.Read.idx_main_v45 (Cert.ReferenceIdeal.Read.idx_main_v46 i)) rfl]
  rfl

/-- The second region leaves the first layer's activations. -/
theorem act4 : W4 (F := Ideal) m ρ c (Proc.devRef .tc main_v43) = val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ((CombineA.final (V3 m ρ) c).trans ?_)
  show CombineA.G (W3 (F := Ideal) m ρ c (Proc.devRef .tc main_v40)) (W3 (F := Ideal) m ρ c (Proc.devRef .tc main_v12))
      (W3 (F := Ideal) m ρ c (Proc.devRef .tc main_v41)) (W3 (F := Ideal) m ρ c (Proc.devRef .tc main_v42)) = _
  rw [agg3 m ρ c, proj3 m ρ c, col3 m ρ c, row3 m ρ c]
  exact combine_eq _ _ _ _

/-! ## What the later layers still read, at the second region's exit -/

theorem at4_v1 : W4 (F := Ideal) m ρ c (Proc.devRef .tc main_v1) = val_main_v1 (F := Ideal) (m ((c : Thread nD τ).loc main_arg1)) :=
  (W4_of_ne m ρ c main_v1 (by decide)).trans ((keep3_v1 m ρ c).trans (src2 m ρ c))
theorem at4_v3 : W4 (F := Ideal) m ρ c (Proc.devRef .tc main_v3) = val_main_v3 (F := Ideal) (m ((c : Thread nD τ).loc main_arg1)) :=
  (W4_of_ne m ρ c main_v3 (by decide)).trans ((keep3_v3 m ρ c).trans (dst2 m ρ c))
theorem at4_v10 : W4 (F := Ideal) m ρ c (Proc.devRef .tc main_v10) = val_main_v10 (F := Ideal) (m ((c : Thread nD τ).loc main_arg1)) :=
  (W4_of_ne m ρ c main_v10 (by decide)).trans ((keep3_v10 m ρ c).trans (dinv2 m ρ c))
theorem at4_v11 : W4 (F := Ideal) m ρ c (Proc.devRef .tc main_v11) = val_main_v40 (F := Ideal) (m ((c : Thread nD τ).loc main_arg1)) :=
  (W4_of_ne m ρ c main_v11 (by decide)).trans ((keep3_v11 m ρ c).trans (dsq2 m ρ c))
theorem at4_arg4 : W4 (F := Ideal) m ρ c (Proc.devRef .tc main_arg4) = (m ((c : Thread nD τ).loc main_arg4)) :=
  (W4_of_ne m ρ c main_arg4 (by decide)).trans ((keep3_arg4 m ρ c).trans (arg4_2 m ρ c))
theorem at4_arg5 : W4 (F := Ideal) m ρ c (Proc.devRef .tc main_arg5) = (m ((c : Thread nD τ).loc main_arg5)) :=
  (W4_of_ne m ρ c main_arg5 (by decide)).trans ((keep3_arg5 m ρ c).trans (arg5_2 m ρ c))
theorem at4_arg6 : W4 (F := Ideal) m ρ c (Proc.devRef .tc main_arg6) = (m ((c : Thread nD τ).loc main_arg6)) :=
  (W4_of_ne m ρ c main_arg6 (by decide)).trans ((keep3_arg6 m ρ c).trans (arg6_2 m ρ c))
theorem at4_arg7 : W4 (F := Ideal) m ρ c (Proc.devRef .tc main_arg7) = (m ((c : Thread nD τ).loc main_arg7)) :=
  (W4_of_ne m ρ c main_arg7 (by decide)).trans ((keep3_arg7 m ρ c).trans (arg7_2 m ρ c))

end Cert.KernelIdeal.LayerA

end
-- ==== Proof.LayerB.lean ====
/-
  The second layer, read through the program's boundaries.

  The third region leaves a₁ · W₂, a₁ the first layer's activations. The host gathers that product at every edge's
  source, scales it by the two end nodes' degree factors and adds it into the destination's row; the fourth region
  adds the self-loop term and the bias and takes the maximum with zero. Each value is the reference's of the same
  name; what the edge list determines was computed before the first region and no later stretch or region writes it.
-/
import proofs.«105934_j70050916598067_1_alg».proof.Proof.Gen.KernelIdeal.Frame
import proofs.«105934_j70050916598067_1_alg».proof.Proof.Gen.ReferenceIdeal.Read
import proofs.«105934_j70050916598067_1_alg».proof.Proof.ProjectB
import proofs.«105934_j70050916598067_1_alg».proof.Proof.CombineB
import proofs.«105934_j70050916598067_1_alg».proof.Proof.Recast
import proofs.«105934_j70050916598067_1_alg».proof.Proof.LayerA
import Idealize.ShloMosaic.Lib.StableHlo.Run
import Idealize.ShloMosaic.Lib.Pipeline.Value
import Idealize.ShloMosaic.Lib.ValueIdx

set_option maxRecDepth 16384

noncomputable section

namespace Cert.KernelIdeal.LayerB

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v10 val_main_v40 val_main_v78 val_main_v115 val_main_v11 val_main_v39 val_main_v48 val_main_v49
  val_main_v77 val_main_v86 val_main_v87 val_main_v114 val_main_v121)

variable (m : (ℓ : Loc nD τ sig) → Buf (Elt Ideal) ℓ) (ρ : Dev nD → PrngReg) (c : Dev nD)

/-! ## The projection region: the matrix product of the previous activations -/

/-- Entry by entry the sum over the contracted axis is the reference's dot_general. -/
theorem project_eq (x0 : (⟨Cert.ReferenceIdeal.S100000x1, .f32⟩ : BufTy).Contents (Elt Ideal)) (x1 : (⟨Cert.ReferenceIdeal.S2x3200000, .i32⟩ : BufTy).Contents (Elt Ideal)) (x2 : (⟨Cert.ReferenceIdeal.S1x64, .f32⟩ : BufTy).Contents (Elt Ideal)) (x3 : (⟨Cert.ReferenceIdeal.S64, .f32⟩ : BufTy).Contents (Elt Ideal)) (x4 : (⟨Cert.ReferenceIdeal.S64x8, .f32⟩ : BufTy).Contents (Elt Ideal)) :
    ProjectB.G (val_main_v48 (F := Ideal) x0 x1 x2 x3) x4 = val_main_v49 (F := Ideal) x0 x1 x2 x3 x4 :=
  funext fun i => (Cert.ReferenceIdeal.Read.val_main_v49_apply x0 x1 x2 x3 x4 i).symm

/-- The projection region leaves the matrix product of the previous layer's activations with this layer's weights. -/
theorem proj : W5 (F := Ideal) m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((ProjectB.final (V4 m ρ) c).trans ?_)
  show ProjectB.G (W4 (F := Ideal) m ρ c (Proc.devRef .tc main_v43)) (W4 (F := Ideal) m ρ c (Proc.devRef .tc main_arg4)) = _
  rw [LayerA.act4 m ρ c, LayerA.at4_arg4 m ρ c]
  exact project_eq _ _ _ _ _

/-! ## What the host stretch reads, at the projection region's exit -/

theorem in_v1 : W5 (F := Ideal) m ρ c (Proc.devRef .tc main_v1) = val_main_v1 (F := Ideal) (m ((c : Thread nD τ).loc main_arg1)) :=
  (W5_of_ne m ρ c main_v1 (by decide)).trans (LayerA.at4_v1 m ρ c)
theorem in_v3 : W5 (F := Ideal) m ρ c (Proc.devRef .tc main_v3) = val_main_v3 (F := Ideal) (m ((c : Thread nD τ).loc main_arg1)) :=
  (W5_of_ne m ρ c main_v3 (by decide)).trans (LayerA.at4_v3 m ρ c)
theorem in_v10 : W5 (F := Ideal) m ρ c (Proc.devRef .tc main_v10) = val_main_v10 (F := Ideal) (m ((c : Thread nD τ).loc main_arg1)) :=
  (W5_of_ne m ρ c main_v10 (by decide)).trans (LayerA.at4_v10 m ρ c)
theorem in_v11 : W5 (F := Ideal) m ρ c (Proc.devRef .tc main_v11) = val_main_v40 (F := Ideal) (m ((c : Thread nD τ).loc main_arg1)) :=
  (W5_of_ne m ρ c main_v11 (by decide)).trans (LayerA.at4_v11 m ρ c)
theorem in_bias : W5 (F := Ideal) m ρ c (Proc.devRef .tc main_arg5) = (m ((c : Thread nD τ).loc main_arg5)) :=
  (W5_of_ne m ρ c main_arg5 (by decide)).trans (LayerA.at4_arg5 m ρ c)

/-! ## The host stretch before the combine region -/

theorem agg : W6 (F := Ideal) m ρ c (Proc.devRef .tc main_v72) = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v72) = _
  after_results_simp
  rw [in_v1 m ρ c, in_v3 m ρ c, in_v10 m ρ c, proj m ρ c] <;> rfl

theorem col : W6 (F := Ideal) m ρ c (Proc.devRef .tc main_v73) = shapeCast S100000x1 (val_main_v40 (F := Ideal) (m ((c : Thread nD τ).loc main_arg1))) shapeCasts_S100000_S100000x1 := by
  show StableHlo.after hostOps3 (W5 m ρ c) (Proc.devRef .tc main_v73) = _
  after_results_simp
  rw [in_v11 m ρ c] <;> rfl

theorem row : W6 (F := Ideal) m ρ c (Proc.devRef .tc main_v74) = shapeCast S1x8 (m ((c : Thread nD τ).loc main_arg5)) shapeCasts_S8_S1x8 := by
  show StableHlo.after hostOps3 (W5 m ρ c) (Proc.devRef .tc main_v74) = _
  after_results_simp
  rw [in_bias m ρ c] <;> rfl

theorem keep_h : W6 (F := Ideal) m ρ c (Proc.devRef .tc main_v44) = W5 (F := Ideal) m ρ c (Proc.devRef .tc main_v44) := by
  show StableHlo.after hostOps3 (W5 m ρ c) (Proc.devRef .tc main_v44) = _
  after_results_simp

theorem projh : W6 (F := Ideal) m ρ c (Proc.devRef .tc main_v44) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (keep_h m ρ c).trans (proj m ρ c)
theorem keep_v1 : W6 (F := Ideal) m ρ c (Proc.devRef .tc main_v1) = W5 (F := Ideal) m ρ c (Proc.devRef .tc main_v1) := by
  show StableHlo.after hostOps3 (W5 m ρ c) (Proc.devRef .tc main_v1) = _
  after_results_simp

theorem keep_v3 : W6 (F := Ideal) m ρ c (Proc.devRef .tc main_v3) = W5 (F := Ideal) m ρ c (Proc.devRef .tc main_v3) := by
  show StableHlo.after hostOps3 (W5 m ρ c) (Proc.devRef .tc main_v3) = _
  after_results_simp

theorem keep_v10 : W6 (F := Ideal) m ρ c (Proc.devRef .tc main_v10) = W5 (F := Ideal) m ρ c (Proc.devRef .tc main_v10) := by
  show StableHlo.after hostOps3 (W5 m ρ c) (Proc.devRef .tc main_v10) = _
  after_results_simp

theorem keep_v11 : W6 (F := Ideal) m ρ c (Proc.devRef .tc main_v11) = W5 (F := Ideal) m ρ c (Proc.devRef .tc main_v11) := by
  show StableHlo.after hostOps3 (W5 m ρ c) (Proc.devRef .tc main_v11) = _
  after_results_simp

theorem keep_arg6 : W6 (F := Ideal) m ρ c (Proc.devRef .tc main_arg6) = W5 (F := Ideal) m ρ c (Proc.devRef .tc main_arg6) := by
  show StableHlo.after hostOps3 (W5 m ρ c) (Proc.devRef .tc main_arg6) = _
  after_results_simp

theorem keep_arg7 : W6 (F := Ideal) m ρ c (Proc.devRef .tc main_arg7) = W5 (F := Ideal) m ρ c (Proc.devRef .tc main_arg7) := by
  show StableHlo.after hostOps3 (W5 m ρ c) (Proc.devRef .tc main_arg7) = _
  after_results_simp

/-! ## The combine region: the layer's combine step is the reference's -/

/-- The reference squares the degree factor anew in every layer; the squares are one term. -/
theorem dsq_same (x1 : (⟨Cert.ReferenceIdeal.S2x3200000, .i32⟩ : BufTy).Contents (Elt Ideal)) :
    val_main_v40 (F := Ideal) x1 = val_main_v78 (F := Ideal) x1 := rfl

/-- Entry by entry the combine step of the reference's operands is the reference's activation. -/
theorem combine_eq (x0 : (⟨Cert.ReferenceIdeal.S100000x1, .f32⟩ : BufTy).Contents (Elt Ideal)) (x1 : (⟨Cert.ReferenceIdeal.S2x3200000, .i32⟩ : BufTy).Contents (Elt Ideal)) (x2 : (⟨Cert.ReferenceIdeal.S1x64, .f32⟩ : BufTy).Contents (Elt Ideal)) (x3 : (⟨Cert.ReferenceIdeal.S64, .f32⟩ : BufTy).Contents (Elt Ideal)) (x4 : (⟨Cert.ReferenceIdeal.S64x8, .f32⟩ : BufTy).Contents (Elt Ideal)) (x5 : (⟨Cert.ReferenceIdeal.S8, .f32⟩ : BufTy).Contents (Elt Ideal)) :
    CombineB.G (val_main_v77 (F := Ideal) x0 x1 x2 x3 x4) (val_main_v49 (F := Ideal) x0 x1 x2 x3 x4)
        (shapeCast S100000x1 (val_main_v40 (F := Ideal) x1) shapeCasts_S100000_S100000x1) (shapeCast S1x8 x5 shapeCasts_S8_S1x8)
      = val_main_v86 (F := Ideal) x0 x1 x2 x3 x4 x5 := by
  funext i
  rw [Cert.ReferenceIdeal.Read.val_main_v86_apply, Cert.ReferenceIdeal.Read.val_main_v85_apply, Cert.ReferenceIdeal.Read.val_main_v82_apply, Cert.ReferenceIdeal.Read.val_main_v81_apply, Cert.ReferenceIdeal.Read.val_main_v80_apply, Cert.ReferenceIdeal.Read.val_main_v79_apply, Cert.ReferenceIdeal.Read.val_main_v84_apply, Cert.ReferenceIdeal.Read.val_main_v83_apply, Cert.ReferenceIdeal.Read.val_main_call1_v0_apply, Cert.ReferenceIdeal.Read.val_main_call1_cst_apply]
  unfold CombineB.G
  rw [Recast.column (val_main_v40 (F := Ideal) x1) _ (Cert.ReferenceIdeal.Read.idx_main_v80 i) (Cert.ReferenceIdeal.Read.idx_main_v79 (Cert.ReferenceIdeal.Read.idx_main_v80 i)) rfl,
    Recast.row8 x5 _ (Cert.ReferenceIdeal.Read.idx_main_v84 i) (Cert.ReferenceIdeal.Read.idx_main_v83 (Cert.ReferenceIdeal.Read.idx_main_v84 i)) rfl, dsq_same]
  rfl

/-- The combine region leaves this layer's activations. -/
theorem act : W7 (F := Ideal) m ρ c (Proc.devRef .tc main_v75) = val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ((CombineB.final (V6 m ρ) c).trans ?_)
  show CombineB.G (W6 (F := Ideal) m ρ c (Proc.devRef .tc main_v72)) (W6 (F := Ideal) m ρ c (Proc.devRef .tc main_v44))
      (W6 (F := Ideal) m ρ c (Proc.devRef .tc main_v73)) (W6 (F := Ideal) m ρ c (Proc.devRef .tc main_v74)) = _
  rw [agg m ρ c, projh m ρ c, col m ρ c, row m ρ c]
  exact combine_eq _ _ _ _ _ _

/-! ## What the last layer still reads, at the fourth region's exit -/

theorem at7_v1 : W7 (F := Ideal) m ρ c (Proc.devRef .tc main_v1) = val_main_v1 (F := Ideal) (m ((c : Thread nD τ).loc main_arg1)) :=
  (W7_of_ne m ρ c main_v1 (by decide)).trans ((keep_v1 m ρ c).trans (in_v1 m ρ c))
theorem at7_v3 : W7 (F := Ideal) m ρ c (Proc.devRef .tc main_v3) = val_main_v3 (F := Ideal) (m ((c : Thread nD τ).loc main_arg1)) :=
  (W7_of_ne m ρ c main_v3 (by decide)).trans ((keep_v3 m ρ c).trans (in_v3 m ρ c))
theorem at7_v10 : W7 (F := Ideal) m ρ c (Proc.devRef .tc main_v10) = val_main_v10 (F := Ideal) (m ((c : Thread nD τ).loc main_arg1)) :=
  (W7_of_ne m ρ c main_v10 (by decide)).trans ((keep_v10 m ρ c).trans (in_v10 m ρ c))
theorem at7_v11 : W7 (F := Ideal) m ρ c (Proc.devRef .tc main_v11) = val_main_v40 (F := Ideal) (m ((c : Thread nD τ).loc main_arg1)) :=
  (W7_of_ne m ρ c main_v11 (by decide)).trans ((keep_v11 m ρ c).trans (in_v11 m ρ c))
theorem at7_arg6 : W7 (F := Ideal) m ρ c (Proc.devRef .tc main_arg6) = (m ((c : Thread nD τ).loc main_arg6)) :=
  (W7_of_ne m ρ c main_arg6 (by decide)).trans ((keep_arg6 m ρ c).trans ((W5_of_ne m ρ c main_arg6 (by decide)).trans (LayerA.at4_arg6 m ρ c)))
theorem at7_arg7 : W7 (F := Ideal) m ρ c (Proc.devRef .tc main_arg7) = (m ((c : Thread nD τ).loc main_arg7)) :=
  (W7_of_ne m ρ c main_arg7 (by decide)).trans ((keep_arg7 m ρ c).trans ((W5_of_ne m ρ c main_arg7 (by decide)).trans (LayerA.at4_arg7 m ρ c)))

end Cert.KernelIdeal.LayerB

end
-- ==== Proof.LayerC.lean ====
/-
  The last layer, read through the program's boundaries, and the program's result.

  The fifth region leaves a₂ · W₃, a₂ the second layer's activations. The host gathers that product at every edge's
  source, scales it by the two end nodes' degree factors and adds it into the destination's row; the sixth region
  adds the self-loop term and the bias (no maximum in the last layer). That is the reference's result.
-/
import proofs.«105934_j70050916598067_1_alg».proof.Proof.Gen.KernelIdeal.Frame
import proofs.«105934_j70050916598067_1_alg».proof.Proof.Gen.ReferenceIdeal.Read
import proofs.«105934_j70050916598067_1_alg».proof.Proof.ProjectC
import proofs.«105934_j70050916598067_1_alg».proof.Proof.CombineC
import proofs.«105934_j70050916598067_1_alg».proof.Proof.Recast
import proofs.«105934_j70050916598067_1_alg».proof.Proof.LayerB
import Idealize.ShloMosaic.Lib.StableHlo.Run
import Idealize.ShloMosaic.Lib.Pipeline.Value
import Idealize.ShloMosaic.Lib.ValueIdx

set_option maxRecDepth 16384

noncomputable section

namespace Cert.KernelIdeal.LayerC

open Idealize.ShloMosaic Idealize.ShloMosaic.TcCoe Idealize.SL.Sem Idealize.ShloMosaic.StableHlo
open Cert.KernelIdeal Cert.KernelIdeal.Gen
open Cert.ReferenceIdeal.Read (val_main_v1 val_main_v3 val_main_v10 val_main_v40 val_main_v78 val_main_v115 val_main_v11 val_main_v39 val_main_v48 val_main_v49
  val_main_v77 val_main_v86 val_main_v87 val_main_v114 val_main_v121)

variable (m : (ℓ : Loc nD τ sig) → Buf (Elt Ideal) ℓ) (ρ : Dev nD → PrngReg) (c : Dev nD)

/-! ## The projection region: the matrix product of the previous activations -/

/-- Entry by entry the sum over the contracted axis is the reference's dot_general. -/
theorem project_eq (x0 : (⟨Cert.ReferenceIdeal.S100000x1, .f32⟩ : BufTy).Contents (Elt Ideal)) (x1 : (⟨Cert.ReferenceIdeal.S2x3200000, .i32⟩ : BufTy).Contents (Elt Ideal)) (x2 : (⟨Cert.ReferenceIdeal.S1x64, .f32⟩ : BufTy).Contents (Elt Ideal)) (x3 : (⟨Cert.ReferenceIdeal.S64, .f32⟩ : BufTy).Contents (Elt Ideal)) (x4 : (⟨Cert.ReferenceIdeal.S64x8, .f32⟩ : BufTy).Contents (Elt Ideal)) (x5 : (⟨Cert.ReferenceIdeal.S8, .f32⟩ : BufTy).Contents (Elt Ideal)) (x6 : (⟨Cert.ReferenceIdeal.S8x1, .f32⟩ : BufTy).Contents (Elt Ideal)) :
    ProjectC.G (val_main_v86 (F := Ideal) x0 x1 x2 x3 x4 x5) x6 = val_main_v87 (F := Ideal) x0 x1 x2 x3 x4 x5 x6 :=
  funext fun i => (Cert.ReferenceIdeal.Read.val_main_v87_apply x0 x1 x2 x3 x4 x5 x6 i).symm

/-- The projection region leaves the matrix product of the previous layer's activations with this layer's weights. -/
theorem proj : W8 (F := Ideal) m ρ c (Proc.devRef .tc main_v76) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((ProjectC.final (V7 m ρ) c).trans ?_)
  show ProjectC.G (W7 (F := Ideal) m ρ c (Proc.devRef .tc main_v75)) (W7 (F := Ideal) m ρ c (Proc.devRef .tc main_arg6)) = _
  rw [LayerB.act m ρ c, LayerB.at7_arg6 m ρ c]
  exact project_eq _ _ _ _ _ _ _

/-! ## What the host stretch reads, at the projection region's exit -/

theorem in_v1 : W8 (F := Ideal) m ρ c (Proc.devRef .tc main_v1) = val_main_v1 (F := Ideal) (m ((c : Thread nD τ).loc main_arg1)) :=
  (W8_of_ne m ρ c main_v1 (by decide)).trans (LayerB.at7_v1 m ρ c)
theorem in_v3 : W8 (F := Ideal) m ρ c (Proc.devRef .tc main_v3) = val_main_v3 (F := Ideal) (m ((c : Thread nD τ).loc main_arg1)) :=
  (W8_of_ne m ρ c main_v3 (by decide)).trans (LayerB.at7_v3 m ρ c)
theorem in_v10 : W8 (F := Ideal) m ρ c (Proc.devRef .tc main_v10) = val_main_v10 (F := Ideal) (m ((c : Thread nD τ).loc main_arg1)) :=
  (W8_of_ne m ρ c main_v10 (by decide)).trans (LayerB.at7_v10 m ρ c)
theorem in_v11 : W8 (F := Ideal) m ρ c (Proc.devRef .tc main_v11) = val_main_v40 (F := Ideal) (m ((c : Thread nD τ).loc main_arg1)) :=
  (W8_of_ne m ρ c main_v11 (by decide)).trans (LayerB.at7_v11 m ρ c)
theorem in_bias : W8 (F := Ideal) m ρ c (Proc.devRef .tc main_arg7) = (m ((c : Thread nD τ).loc main_arg7)) :=
  (W8_of_ne m ρ c main_arg7 (by decide)).trans (LayerB.at7_arg7 m ρ c)

/-! ## The host stretch before the combine region -/

theorem agg : W9 (F := Ideal) m ρ c (Proc.devRef .tc main_v103) = val_main_v114 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps5 (W8 m ρ c) (Proc.devRef .tc main_v103) = _
  after_results_simp
  rw [in_v1 m ρ c, in_v3 m ρ c, in_v10 m ρ c, proj m ρ c] <;> rfl

theorem col : W9 (F := Ideal) m ρ c (Proc.devRef .tc main_v104) = shapeCast S100000x1 (val_main_v40 (F := Ideal) (m ((c : Thread nD τ).loc main_arg1))) shapeCasts_S100000_S100000x1 := by
  show StableHlo.after hostOps5 (W8 m ρ c) (Proc.devRef .tc main_v104) = _
  after_results_simp
  rw [in_v11 m ρ c] <;> rfl

theorem row : W9 (F := Ideal) m ρ c (Proc.devRef .tc main_v105) = shapeCast S1x1 (m ((c : Thread nD τ).loc main_arg7)) shapeCasts_S1_S1x1 := by
  show StableHlo.after hostOps5 (W8 m ρ c) (Proc.devRef .tc main_v105) = _
  after_results_simp
  rw [in_bias m ρ c] <;> rfl

theorem keep_h : W9 (F := Ideal) m ρ c (Proc.devRef .tc main_v76) = W8 (F := Ideal) m ρ c (Proc.devRef .tc main_v76) := by
  show StableHlo.after hostOps5 (W8 m ρ c) (Proc.devRef .tc main_v76) = _
  after_results_simp

theorem projh : W9 (F := Ideal) m ρ c (Proc.devRef .tc main_v76) = val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (keep_h m ρ c).trans (proj m ρ c)

/-! ## The combine region: the layer's combine step is the reference's -/

/-- The reference squares the degree factor anew in every layer; the squares are one term. -/
theorem dsq_same (x1 : (⟨Cert.ReferenceIdeal.S2x3200000, .i32⟩ : BufTy).Contents (Elt Ideal)) :
    val_main_v40 (F := Ideal) x1 = val_main_v115 (F := Ideal) x1 := rfl

/-- Entry by entry the combine step of the reference's operands is the reference's result. -/
theorem combine_eq (x0 : (⟨Cert.ReferenceIdeal.S100000x1, .f32⟩ : BufTy).Contents (Elt Ideal)) (x1 : (⟨Cert.ReferenceIdeal.S2x3200000, .i32⟩ : BufTy).Contents (Elt Ideal)) (x2 : (⟨Cert.ReferenceIdeal.S1x64, .f32⟩ : BufTy).Contents (Elt Ideal)) (x3 : (⟨Cert.ReferenceIdeal.S64, .f32⟩ : BufTy).Contents (Elt Ideal)) (x4 : (⟨Cert.ReferenceIdeal.S64x8, .f32⟩ : BufTy).Contents (Elt Ideal)) (x5 : (⟨Cert.ReferenceIdeal.S8, .f32⟩ : BufTy).Contents (Elt Ideal)) (x6 : (⟨Cert.ReferenceIdeal.S8x1, .f32⟩ : BufTy).Contents (Elt Ideal)) (x7 : (⟨Cert.ReferenceIdeal.S1, .f32⟩ : BufTy).Contents (Elt Ideal)) :
    CombineC.G (val_main_v114 (F := Ideal) x0 x1 x2 x3 x4 x5 x6) (val_main_v87 (F := Ideal) x0 x1 x2 x3 x4 x5 x6)
        (shapeCast S100000x1 (val_main_v40 (F := Ideal) x1) shapeCasts_S100000_S100000x1) (shapeCast S1x1 x7 shapeCasts_S1_S1x1)
      = val_main_v121 (F := Ideal) x0 x1 x2 x3 x4 x5 x6 x7 := by
  funext i
  rw [Cert.ReferenceIdeal.Read.val_main_v121_apply, Cert.ReferenceIdeal.Read.val_main_v118_apply, Cert.ReferenceIdeal.Read.val_main_v117_apply, Cert.ReferenceIdeal.Read.val_main_v116_apply, Cert.ReferenceIdeal.Read.val_main_v120_apply, Cert.ReferenceIdeal.Read.val_main_v119_apply]
  unfold CombineC.G
  rw [Recast.column (val_main_v40 (F := Ideal) x1) _ i (Cert.ReferenceIdeal.Read.idx_main_v116 i) rfl,
    Recast.row1 x7 _ (Cert.ReferenceIdeal.Read.idx_main_v120 i) (Cert.ReferenceIdeal.Read.idx_main_v119 (Cert.ReferenceIdeal.Read.idx_main_v120 i)), dsq_same]
  rfl

/-- The combine region leaves this layer's result. -/
theorem act : W10 (F := Ideal) m ρ c (Proc.devRef .tc main_v106) = val_main_v121 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 4).trans ((CombineC.final (V9 m ρ) c).trans ?_)
  show CombineC.G (W9 (F := Ideal) m ρ c (Proc.devRef .tc main_v103)) (W9 (F := Ideal) m ρ c (Proc.devRef .tc main_v76))
      (W9 (F := Ideal) m ρ c (Proc.devRef .tc main_v104)) (W9 (F := Ideal) m ρ c (Proc.devRef .tc main_v105)) = _
  rw [agg m ρ c, projh m ρ c, col m ρ c, row m ρ c]
  exact combine_eq _ _ _ _ _ _ _ _

end Cert.KernelIdeal.LayerC

end
-- ==== Proof.lean ====
/-
  A three-layer graph convolution (features 1 → 64 → 8 → 1 over 100000 nodes and 3200000 edges) computed two ways
  is one function on the extended reals.

  Both programs compute, from the edge list, each node's degree d(n) (counting a self loop) and s(n) = d(n)^(-1/2),
  and per layer, with h = a · W the projected features,
      out(n, f) = Σ over edges e into n of h(src e, f) · (s(src e) · s(dst e)) + h(n, f) · s(n)² + b(f),
  followed in the first two layers by the maximum with zero. One program does the projection and the combine step
  (self loop, bias, maximum) in row-blocked regions of 5000 nodes and the edge gather and scatter-add on the host;
  the other does everything on the host. The edge stretches are the same operations on equal operands, a blocked
  matrix product into a zero accumulator is the plain sum over the contracted axis, a change of float format is
  the identity, and the blocked combine step is the same pointwise expression with the degree column and the bias
  row spread by index; the association of every sum is the same on both sides, so no law of the extended reals
  beyond these identities is used and the inputs' finiteness is never opened.

  The frames of the two kernel programs are the generated ones; the reference's frame is its generated run with
  the result dropped; the idealization rewrote nothing, so its preservation claim is trivial.
-/
import proofs.«105934_j70050916598067_1_alg».proof.Defs
import proofs.«105934_j70050916598067_1_alg».proof.Proof.Gen.Kernel
import proofs.«105934_j70050916598067_1_alg».proof.Proof.Gen.Kernel.Skeleton
import proofs.«105934_j70050916598067_1_alg».proof.Proof.Gen.Kernel.Launch
import proofs.«105934_j70050916598067_1_alg».proof.Proof.Gen.Kernel.Points
import proofs.«105934_j70050916598067_1_alg».proof.Proof.Gen.Kernel.Frame
import proofs.«105934_j70050916598067_1_alg».proof.Proof.Gen.KernelIdeal
import proofs.«105934_j70050916598067_1_alg».proof.Proof.Gen.KernelIdeal.Skeleton
import proofs.«105934_j70050916598067_1_alg».proof.Proof.Gen.KernelIdeal.Launch
import proofs.«105934_j70050916598067_1_alg».proof.Proof.Gen.KernelIdeal.Points
import proofs.«105934_j70050916598067_1_alg».proof.Proof.Gen.KernelIdeal.Frame
import proofs.«105934_j70050916598067_1_alg».proof.Proof.Gen.ReferenceIdeal
import proofs.«105934_j70050916598067_1_alg».proof.Proof.Gen.Pre_finite_inputs
import proofs.«105934_j70050916598067_1_alg».proof.Proof.Gen.ReferenceIdeal.Run
import proofs.«105934_j70050916598067_1_alg».proof.Proof.Gen.ReferenceIdeal.Read
import proofs.«105934_j70050916598067_1_alg».proof.Proof.KernelRun
import proofs.«105934_j70050916598067_1_alg».proof.Proof.LayerC
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at the three-layer
    convolution of the arguments: the blocked program's last boundary read at the result buffer, and the host
    program's composed term, are the same function of the same arrays. -/
theorem algebraic : Cert.algebraic_KernelIdeal_ReferenceIdeal := by
  intro m ρ m' ρ' _ hagree
  refine ⟨fun c => Cert.KernelIdeal.Gen.W10 (F := Ideal) m ρ c (Proc.devRef .tc Cert.KernelIdeal.main_v106),
    Cert.KernelIdeal.Named.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v121_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact (Cert.KernelIdeal.LayerC.act m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
